-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : IVec S10000 32) (main_arg1 : IVec S2x1600000 32) (main_arg2 : FVec F S100000x128 .f32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S10000 : Shape := ⟨1, ![10000]⟩
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S10000x1 : Shape := ⟨2, ![10000, 1]⟩
abbrev S10000x40 : Shape := ⟨2, ![10000, 40]⟩

abbrev nBuf : Space → Nat
  | .hbm => 118
  | .vmem => 30
  | .smem => 0
  | _ => 0

abbrev bufTy : (tb : Table) → Fin (tcTables nBuf tb) → BufTy
  | .hbm, ⟨0, _⟩ => ⟨S10000, .i32⟩
  | .hbm, ⟨1, _⟩ => ⟨S2x1600000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x40, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x40, .f32⟩
  | .hbm, ⟨100, _⟩ => ⟨S1700000x1, .f32⟩
  | .hbm, ⟨101, _⟩ => ⟨S1700000x40, .f32⟩
  | .hbm, ⟨102, _⟩ => ⟨S1700000x40, .f32⟩
  | .hbm, ⟨103, _⟩ => ⟨S_, .f32⟩
  | .hbm, ⟨104, _⟩ => ⟨S100000x40, .f32⟩
  | .hbm, ⟨105, _⟩ => ⟨S1700000x1, .i32⟩
  | .hbm, ⟨106, _⟩ => ⟨S100000x40, .f32⟩
  | .hbm, ⟨107, _⟩ => ⟨S1x40, .f32⟩
  | .hbm, ⟨108, _⟩ => ⟨S100000x40, .f32⟩
  | .hbm, ⟨109, _⟩ => ⟨S_, .i32⟩
  | .hbm, ⟨110, _⟩ => ⟨S10000, .i32⟩
  | .hbm, ⟨111, _⟩ => ⟨S10000, .i1⟩
  | .hbm, ⟨112, _⟩ => ⟨S_, .i32⟩
  | .hbm, ⟨113, _⟩ => ⟨S10000, .i32⟩
  | .hbm, ⟨114, _⟩ => ⟨S10000, .i32⟩
  | .hbm, ⟨115, _⟩ => ⟨S10000, .i32⟩
  | .hbm, ⟨116, _⟩ => ⟨S10000x1, .i32⟩
  | .hbm, ⟨117, _⟩ => ⟨S10000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_v81 : Ref sig .tc := ⟨.hbm, 111, rfl⟩
abbrev main_c_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  bcast_S_S10000 : S_.BroadcastsInDim S10000 (![] : Fin 0 → Fin S10000.rank)
  bcast_S10000_S10000x1_0 : S10000.BroadcastsInDim S10000x1 (![0] : Fin 1 → Fin S10000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  gather_S100000x40_S10000x1_S10000x40_1_0_n_n_0_1_140_wf : GatherDims.WF S100000x40 S10000x1 S10000x40 [1] [0] [] [0] [] 1 ![1, 40]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S100000x40.size a
  hwx4_2 : ∀ i : grid4.Coords, EltTy.bits .f32 = 32 ∨ (Rect.block (s := S100000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf
def gather_S100000x40_S10000x1_S10000x40_1_0_n_n_0_1_140 : GatherDims S100000x40 S10000x1 S10000x40 where
  offsetDims := [1]
  collapsedSliceDims := [0]
  operandBatchingDims := []
  startIndicesBatchingDims := []
  startIndexMap := [0]
  indexVectorDim := 1
  sliceSizes := ![1, 40]
  wf := gather_S100000x40_S10000x1_S10000x40_1_0_n_n_0_1_140_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000 : Shape := ⟨1, ![10000]⟩
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S10000x1 : Shape := ⟨2, ![10000, 1]⟩
abbrev S10000x40 : Shape := ⟨2, ![10000, 40]⟩

abbrev nBuf : Space → Nat
  | .hbm => 127
  | .vmem => 0
  | .smem => 0
  | _ => 0

abbrev bufTy : (tb : Table) → Fin (tcTables nBuf tb) → BufTy
  | .hbm, ⟨0, _⟩ => ⟨S10000, .i32⟩
  | .hbm, ⟨1, _⟩ => ⟨S2x1600000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S100000x40, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x40, .f32⟩
  | .hbm, ⟨108, _⟩ => ⟨S1700000x1, .f32⟩
  | .hbm, ⟨109, _⟩ => ⟨S1700000x40, .f32⟩
  | .hbm, ⟨110, _⟩ => ⟨S1700000x40, .f32⟩
  | .hbm, ⟨111, _⟩ => ⟨S_, .f32⟩
  | .hbm, ⟨112, _⟩ => ⟨S100000x40, .f32⟩
  | .hbm, ⟨113, _⟩ => ⟨S1700000x1, .i32⟩
  | .hbm, ⟨114, _⟩ => ⟨S100000x40, .f32⟩
  | .hbm, ⟨115, _⟩ => ⟨S1x40, .f32⟩
  | .hbm, ⟨116, _⟩ => ⟨S100000x40, .f32⟩
  | .hbm, ⟨117, _⟩ => ⟨S100000x40, .f32⟩
  | .hbm, ⟨118, _⟩ => ⟨S_, .i32⟩
  | .hbm, ⟨119, _⟩ => ⟨S10000, .i32⟩
  | .hbm, ⟨120, _⟩ => ⟨S10000, .i1⟩
  | .hbm, ⟨121, _⟩ => ⟨S_, .i32⟩
  | .hbm, ⟨122, _⟩ => ⟨S10000, .i32⟩
  | .hbm, ⟨123, _⟩ => ⟨S10000, .i32⟩
  | .hbm, ⟨124, _⟩ => ⟨S10000, .i32⟩
  | .hbm, ⟨125, _⟩ => ⟨S10000x1, .i32⟩
  | .hbm, ⟨126, _⟩ => ⟨S10000x40, .f32⟩
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_16 : Ref sig .tc := ⟨.hbm, 118, rfl⟩
abbrev main_v85 : Ref sig .tc := ⟨.hbm, 119, rfl⟩
abbrev main_v86 : Ref sig .tc := ⟨.hbm, 120, rfl⟩
abbrev main_c_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S10000 : S_.BroadcastsInDim S10000 (![] : Fin 0 → Fin S10000.rank)
  bcast_S10000_S10000x1_0 : S10000.BroadcastsInDim S10000x1 (![0] : Fin 1 → Fin S10000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  gather_S100000x40_S10000x1_S10000x40_1_0_n_n_0_1_140_wf : GatherDims.WF S100000x40 S10000x1 S10000x40 [1] [0] [] [0] [] 1 ![1, 40]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf
def gather_S100000x40_S10000x1_S10000x40_1_0_n_n_0_1_140 : GatherDims S100000x40 S10000x1 S10000x40 where
  offsetDims := [1]
  collapsedSliceDims := [0]
  operandBatchingDims := []
  startIndicesBatchingDims := []
  startIndexMap := [0]
  indexVectorDim := 1
  sliceSizes := ![1, 40]
  wf := gather_S100000x40_S10000x1_S10000x40_1_0_n_n_0_1_140_wf

class Facts : Prop extends Facts₀ where

variable [Facts]
-- ==== Proof.ValueRun.lean ====
/-
  The kernel program's run, read at its last boundary.

  The program is thirteen segments: stretches of host operations and six kernel regions. Segment by segment the
  contents of every buffer that lives across segments are known: a host stretch rewrites the buffers its operations
  write, a region rewrites its output array with what its grid points write back. So every weakly fair execution
  terminates, and in the final memory each such buffer holds the contents of the last boundary. Whatever follows from
  that (the result array's value, the arguments unchanged) holds of every final state.
-/
import proofs.«111457_j20349555048513_1_alg».proof.Proof.Gen.KernelIdeal.Frame

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, and any property that follows from "each buffer living across segments
    holds the last boundary's contents" holds of the final memory. -/
theorem run_last {Q : PUnit × MemSt nD τ sig (Elt F) → Prop}
    (hQ : ∀ s : MemSt nD τ sig (Elt F),
      (∀ c : Dev nD, ∀ b ∈ Pipeline.ucRefs τ sig, s.mem (((c : Thread nD τ)).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

/-- The run with the result array named: it ends at the last boundary's contents of its buffer, and the arguments end as
    launched. -/
theorem run_result : θ_run defs (onTc (τ := τ) (main (F := F))) ⟨m, fun _ => 0, ρ⟩ (fun r => ∀ c : Dev nD,
      r.2.mem ((c.tc : Thread nD τ).loc main_v86) = W13 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_last m ρ fun s h c =>
    ⟨h c _ (mem_uc main_v86 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c)⟩

end Cert.KernelIdeal.Layers

end
-- ==== Proof.Stretches.lean ====
/-
  What a stretch of host operations leaves alone.

  A host operation rewrites the one buffer that holds its result and leaves every other buffer alone. So after a stretch
  of host operations a buffer that is the result of none of them holds what it held before the stretch. For each of
  the program's seven stretches: every operation's result is in the stretch's table of written references, hence any
  reference outside the table comes out of the stretch as it went in. Which buffers a later segment still needs is then
  a matter of looking a name up in a list.
-/
import proofs.«111457_j20349555048513_1_alg».proof.Proof.Gen.KernelIdeal.Frame
import proofs.«111457_j20349555048513_1_alg».proof.Proof.StretchTables
import Idealize.ShloMosaic.Lib.StableHlo.Run

noncomputable section

open Idealize.ShloMosaic Idealize.ShloMosaic.TcCoe Idealize.SL.Sem Idealize.ShloMosaic.StableHlo

namespace Cert.KernelIdeal.Layers

open Cert.KernelIdeal Cert.KernelIdeal.Gen

variable {F : FTy → Type} [FloatOps F]

/-- Each operation of the stretch computing before the degrees are inverted: the two augmented index vectors and the degree counts writes a reference of its table. -/
theorem writesA : (hostOps0 : List (HloOp τ sig (Elt F))).Forall fun op =>
    op.writes ⊆ (writtenA.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals (refine List.mem_map_of_mem ?_; decide)

/-- Any other buffer comes out of that stretch as it went in. -/
theorem keptA (W : Valuation τ sig (Elt F)) (r : Ref sig .tc) (h : r ∉ writtenA) :
    StableHlo.after hostOps0 W (Proc.devRef .tc r) = W (Proc.devRef .tc r) :=
  StableHlo.after_of_writes_sub hostOps0 W writesA h

/-- Each operation of the stretch computing the choice between the inverse square root and zero writes a reference of its table. -/
theorem writesB : (hostOps0_1 : List (HloOp τ sig (Elt F))).Forall fun op =>
    op.writes ⊆ (writtenB.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals (refine List.mem_map_of_mem ?_; decide)

/-- Any other buffer comes out of that stretch as it went in. -/
theorem keptB (W : Valuation τ sig (Elt F)) (r : Ref sig .tc) (h : r ∉ writtenB) :
    StableHlo.after hostOps0_1 W (Proc.devRef .tc r) = W (Proc.devRef .tc r) :=
  StableHlo.after_of_writes_sub hostOps0_1 W writesB h

/-- Each operation of the stretch computing the normalisation of every augmented edge writes a reference of its table. -/
theorem writesC : (hostOps0_2 : List (HloOp τ sig (Elt F))).Forall fun op =>
    op.writes ⊆ (writtenC.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals (refine List.mem_map_of_mem ?_; decide)

/-- Any other buffer comes out of that stretch as it went in. -/
theorem keptC (W : Valuation τ sig (Elt F)) (r : Ref sig .tc) (h : r ∉ writtenC) :
    StableHlo.after hostOps0_2 W (Proc.devRef .tc r) = W (Proc.devRef .tc r) :=
  StableHlo.after_of_writes_sub hostOps0_2 W writesC h

/-- Each operation of the stretch computing the first layer's gather, scaling and neighbourhood sum, and its bias as a row writes a reference of its table. -/
theorem writesD : (hostOps1 : List (HloOp τ sig (Elt F))).Forall fun op =>
    op.writes ⊆ (writtenD.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals (refine List.mem_map_of_mem ?_; decide)

/-- Any other buffer comes out of that stretch as it went in. -/
theorem keptD (W : Valuation τ sig (Elt F)) (r : Ref sig .tc) (h : r ∉ writtenD) :
    StableHlo.after hostOps1 W (Proc.devRef .tc r) = W (Proc.devRef .tc r) :=
  StableHlo.after_of_writes_sub hostOps1 W writesD h

/-- Each operation of the stretch computing the second layer's gather, scaling and neighbourhood sum, and its bias as a row writes a reference of its table. -/
theorem writesE : (hostOps3 : List (HloOp τ sig (Elt F))).Forall fun op =>
    op.writes ⊆ (writtenE.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals (refine List.mem_map_of_mem ?_; decide)

/-- Any other buffer comes out of that stretch as it went in. -/
theorem keptE (W : Valuation τ sig (Elt F)) (r : Ref sig .tc) (h : r ∉ writtenE) :
    StableHlo.after hostOps3 W (Proc.devRef .tc r) = W (Proc.devRef .tc r) :=
  StableHlo.after_of_writes_sub hostOps3 W writesE h

/-- Each operation of the stretch computing the output layer's gather, scaling and neighbourhood sum, and its bias as a row writes a reference of its table. -/
theorem writesG : (hostOps5 : List (HloOp τ sig (Elt F))).Forall fun op =>
    op.writes ⊆ (writtenG.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals (refine List.mem_map_of_mem ?_; decide)

/-- Any other buffer comes out of that stretch as it went in. -/
theorem keptG (W : Valuation τ sig (Elt F)) (r : Ref sig .tc) (h : r ∉ writtenG) :
    StableHlo.after hostOps5 W (Proc.devRef .tc r) = W (Proc.devRef .tc r) :=
  StableHlo.after_of_writes_sub hostOps5 W writesG h

/-- Each operation of the stretch computing the rows of the result picked out at the node list writes a reference of its table. -/
theorem writesH : (hostOps6 : List (HloOp τ sig (Elt F))).Forall fun op =>
    op.writes ⊆ (writtenH.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals (refine List.mem_map_of_mem ?_; decide)

/-- Any other buffer comes out of that stretch as it went in. -/
theorem keptH (W : Valuation τ sig (Elt F)) (r : Ref sig .tc) (h : r ∉ writtenH) :
    StableHlo.after hostOps6 W (Proc.devRef .tc r) = W (Proc.devRef .tc r) :=
  StableHlo.after_of_writes_sub hostOps6 W writesH h

end Cert.KernelIdeal.Layers

end
-- ==== Proof.Prologue.lean ====
/-
  What the program has computed when it enters its first kernel region.

  Before any kernel runs, the host operations build from the edge list the two augmented index vectors (sources and
  targets, each followed by one self-loop per node) and the symmetric normalisation of every augmented edge:
  1/sqrt(deg) of its source times 1/sqrt(deg) of its target, the degrees counted over the augmented targets, the
  inverse square root replaced by zero where a degree is not positive. These three arrays, and the later layers'
  weights and biases, are read by later segments and written by none of them, so they are carried unchanged to every later
  boundary. The reference program computes the same three arrays by the same operations; read one stretch at a time,
  each buffer holds the reference's stage of the same name.
-/
import proofs.«111457_j20349555048513_1_alg».proof.Proof.Stretches
import proofs.«111457_j20349555048513_1_alg».proof.Proof.RefRead
import Idealize.ShloMosaic.Lib.StableHlo.Run

noncomputable section

open Idealize.ShloMosaic Idealize.ShloMosaic.TcCoe Idealize.SL.Sem Idealize.ShloMosaic.StableHlo

namespace Cert.KernelIdeal.Layers

open Cert.KernelIdeal Cert.KernelIdeal.Gen
open Cert.ReferenceIdeal.ReadP

variable (m : (ℓ : Loc nD τ sig) → Buf (Elt Ideal) ℓ) (ρ : Dev nD → PrngReg) (c : Dev nD)

/-- An argument array's launch contents on core c. -/
abbrev arg (r : Ref sig .tc) : Buf (Elt Ideal) ((c.tc : Thread nD τ).loc r) := m ((c.tc : Thread nD τ).loc r)

/-- What later segments read of the buffers no later segment writes: the node list, the later layers' weights and
    biases as launched, and the augmented sources, targets and edge normalisation as the reference computes them. -/
structure Carried (W : Valuation τ sig (Elt Ideal)) : Prop where
  nodes : W (Proc.devRef .tc main_arg0) = arg m c main_arg0
  bias1 : W (Proc.devRef .tc main_arg4) = arg m c main_arg4
  weights2 : W (Proc.devRef .tc main_arg5) = arg m c main_arg5
  bias2 : W (Proc.devRef .tc main_arg6) = arg m c main_arg6
  weights3 : W (Proc.devRef .tc main_arg7) = arg m c main_arg7
  bias3 : W (Proc.devRef .tc main_arg8) = arg m c main_arg8
  src : W (Proc.devRef .tc main_v5) = val_main_v5 (F := Ideal) (arg m c main_arg1)
  dst : W (Proc.devRef .tc main_v6) = val_main_v6 (F := Ideal) (arg m c main_arg1)
  norm : W (Proc.devRef .tc main_v31) = val_main_v31 (F := Ideal) (arg m c main_arg1)

/-- The carried buffers. -/
def carriedRefs : List (Ref sig .tc) :=
  [main_arg0, main_arg4, main_arg5, main_arg6, main_arg7, main_arg8, main_v5, main_v6, main_v31]

/-- Contents that agree with carried ones on the carried buffers are carried. -/
theorem Carried.of_agree {W W' : Valuation τ sig (Elt Ideal)}
    (h : ∀ b ∈ carriedRefs, W' (Proc.devRef .tc b) = W (Proc.devRef .tc b)) (hW : Carried m c W) : Carried m c W' :=
  ⟨(h _ (by decide)).trans hW.nodes, (h _ (by decide)).trans hW.bias1, (h _ (by decide)).trans hW.weights2,
   (h _ (by decide)).trans hW.bias2, (h _ (by decide)).trans hW.weights3, (h _ (by decide)).trans hW.bias3,
   (h _ (by decide)).trans hW.src, (h _ (by decide)).trans hW.dst, (h _ (by decide)).trans hW.norm⟩

/-- No later stretch writes a carried buffer. -/
theorem carried_notD : ∀ b ∈ carriedRefs, b ∉ writtenD := by decide
theorem carried_notE : ∀ b ∈ carriedRefs, b ∉ writtenE := by decide
theorem carried_notG : ∀ b ∈ carriedRefs, b ∉ writtenG := by decide
theorem carried_notH : ∀ b ∈ carriedRefs, b ∉ writtenH := by decide

/-- A buffer none of the first three stretches writes reaches the first region as launched. -/
theorem launched3 (r : Ref sig .tc) (hA : r ∉ writtenA) (hB : r ∉ writtenB) (hC : r ∉ writtenC) :
    W3 m ρ c (Proc.devRef .tc r) = arg m c r :=
  (keptC (W2 m ρ c) r hC).trans ((keptB (W1 m ρ c) r hB).trans ((keptA (W0 m ρ c) r hA).trans rfl))

/-! ### After the first stretch: the augmented index vectors, and the degrees' inverse square roots -/

set_option maxHeartbeats 4000000 in
theorem src1 : W1 m ρ c (Proc.devRef .tc main_v5) = val_main_v5 (F := Ideal) (arg m c main_arg1) := by
  show StableHlo.after hostOps0 (W0 m ρ c) _ = _
  after_results_simp
  rfl

set_option maxHeartbeats 4000000 in
theorem dst1 : W1 m ρ c (Proc.devRef .tc main_v6) = val_main_v6 (F := Ideal) (arg m c main_arg1) := by
  show StableHlo.after hostOps0 (W0 m ρ c) _ = _
  after_results_simp
  rfl

set_option maxHeartbeats 4000000 in
/-- Which nodes have a positive degree. -/
theorem positive1 : W1 m ρ c (Proc.devRef .tc main_v12) = val_main_v12 (F := Ideal) (arg m c main_arg1) := by
  show StableHlo.after hostOps0 (W0 m ρ c) _ = _
  after_results_simp
  rfl

set_option maxHeartbeats 4000000 in
/-- The inverse square root of each degree clamped below at one. -/
theorem rsqrt1 : W1 m ρ c (Proc.devRef .tc main_v15) = val_main_v15 (F := Ideal) (arg m c main_arg1) := by
  show StableHlo.after hostOps0 (W0 m ρ c) _ = _
  after_results_simp
  rfl

set_option maxHeartbeats 4000000 in
theorem zero1 : W1 m ρ c (Proc.devRef .tc main_cst_3) = val_main_cst_3 (F := Ideal) := by
  show StableHlo.after hostOps0 (W0 m ρ c) _ = _
  after_results_simp
  rfl

/-! ### After the second stretch: zero where the degree is not positive -/

/-- The outlined choice computed: the second operand where the mask is on, the scalar spread over the nodes where it is off. -/
theorem where_eq (W : Valuation τ sig (Elt Ideal)) :
    StableHlo.after hostOps0_1 W (Proc.devRef .tc main_v16)
      = select (W (Proc.devRef .tc main_v12)) (W (Proc.devRef .tc main_v15))
          (broadcastInDim S100000 ![] bcast_S_S100000 (id (W (Proc.devRef .tc main_cst_3)))) := rfl

/-- From any contents holding the reference's mask, inverse square roots and zero, the second stretch computes the
    reference's inverse square root of the degrees. -/
theorem dinv_of (W : Valuation τ sig (Elt Ideal))
    (hp : W (Proc.devRef .tc main_v12) = val_main_v12 (F := Ideal) (arg m c main_arg1))
    (hr : W (Proc.devRef .tc main_v15) = val_main_v15 (F := Ideal) (arg m c main_arg1))
    (hz : W (Proc.devRef .tc main_cst_3) = val_main_cst_3 (F := Ideal)) :
    StableHlo.after hostOps0_1 W (Proc.devRef .tc main_v16) = val_main_v16 (F := Ideal) (arg m c main_arg1) := by
  rw [where_eq, hp, hr, hz]
  rfl

theorem dinv2 : W2 m ρ c (Proc.devRef .tc main_v16) = val_main_v16 (F := Ideal) (arg m c main_arg1) :=
  dinv_of m c (W1 m ρ c) (positive1 m ρ c) (rsqrt1 m ρ c) (zero1 m ρ c)

theorem src2 : W2 m ρ c (Proc.devRef .tc main_v5) = val_main_v5 (F := Ideal) (arg m c main_arg1) :=
  (keptB (W1 m ρ c) main_v5 (by decide)).trans (src1 m ρ c)

theorem dst2 : W2 m ρ c (Proc.devRef .tc main_v6) = val_main_v6 (F := Ideal) (arg m c main_arg1) :=
  (keptB (W1 m ρ c) main_v6 (by decide)).trans (dst1 m ρ c)

/-! ### After the third stretch: the normalisation of every augmented edge -/

set_option maxHeartbeats 4000000 in
/-- From any contents holding the reference's inverse square roots and augmented index vectors, the third stretch
    computes the reference's edge normalisation. -/
theorem norm_of (W : Valuation τ sig (Elt Ideal))
    (hi : W (Proc.devRef .tc main_v16) = val_main_v16 (F := Ideal) (arg m c main_arg1))
    (hs : W (Proc.devRef .tc main_v5) = val_main_v5 (F := Ideal) (arg m c main_arg1))
    (hd : W (Proc.devRef .tc main_v6) = val_main_v6 (F := Ideal) (arg m c main_arg1)) :
    StableHlo.after hostOps0_2 W (Proc.devRef .tc main_v31) = val_main_v31 (F := Ideal) (arg m c main_arg1) := by
  after_results_simp
  rw [hi, hs, hd]
  rfl

theorem norm3 : W3 m ρ c (Proc.devRef .tc main_v31) = val_main_v31 (F := Ideal) (arg m c main_arg1) :=
  norm_of m c (W2 m ρ c) (dinv2 m ρ c) (src2 m ρ c) (dst2 m ρ c)

/-- At the first region's entry the carried buffers hold what the reference's stages hold. -/
theorem carried3 : Carried m c (W3 m ρ c) :=
  ⟨launched3 m ρ c main_arg0 (by decide) (by decide) (by decide), launched3 m ρ c main_arg4 (by decide) (by decide) (by decide),
   launched3 m ρ c main_arg5 (by decide) (by decide) (by decide), launched3 m ρ c main_arg6 (by decide) (by decide) (by decide),
   launched3 m ρ c main_arg7 (by decide) (by decide) (by decide), launched3 m ρ c main_arg8 (by decide) (by decide) (by decide),
   (keptC (W2 m ρ c) main_v5 (by decide)).trans (src2 m ρ c), (keptC (W2 m ρ c) main_v6 (by decide)).trans (dst2 m ρ c),
   norm3 m ρ c⟩

/-- The node features and the first layer's weights reach the first region as launched. -/
theorem features3 : W3 m ρ c (Proc.devRef .tc main_arg2) = arg m c main_arg2
    ∧ W3 m ρ c (Proc.devRef .tc main_arg3) = arg m c main_arg3 :=
  ⟨launched3 m ρ c main_arg2 (by decide) (by decide) (by decide), launched3 m ρ c main_arg3 (by decide) (by decide) (by decide)⟩

end Cert.KernelIdeal.Layers

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibStripDot.lean ====
/-
  A matrix product computed one strip of rows at a time.

  Row r of a product X · W depends only on row r of X. So if a block xb holds the rows o, o+1, …, o+m−1 of X
  and wb is all of W, the (p, q) entry of the block product xb · wb — as a tpu.matmul into the zero accumulator
  computes it — is the (o+p, q) entry of the whole product X · W — as the host's dot_general computes it: both
  are the sum over k of X (o+p, k) · W (k, q) on the extended reals. No finiteness is needed: the two sums have
  the same terms.
-/
import proofs.«111457_j20349555048513_1_alg».proof.Proof.LibPlainDot

noncomputable section

open scoped BigOperators

namespace Idealize.ShloMosaic.StripDot

open Idealize.ShloMosaic Idealize.ShloMosaic.ValueIdx

variable {m M K N : Nat}

/-- The block product of a strip of rows is that strip of the whole product, entry by entry. -/
theorem matmul_strip_apply {φ₁ φ₂ : FTy} (prec prec' : Option ContractPrecision) (sched : HostSchedule)
    (X : FVec Ideal ⟨2, ![M, K]⟩ φ₁) (W : FVec Ideal ⟨2, ![K, N]⟩ φ₂)
    (xb : FVec Ideal ⟨2, ![m, K]⟩ φ₁) (wb : FVec Ideal ⟨2, ![K, N]⟩ φ₂)
    (o : Nat) (ho : ∀ p : Fin m, o + p.val < M)
    (hx : ∀ (p : Fin m) (k : Fin K), xb (ix2 p k) = X (ix2 ⟨o + p.val, ho p⟩ k))
    (hw : ∀ (k : Fin K) (q : Fin N), wb (ix2 k q) = W (ix2 k q)) (p : Fin m) (q : Fin N) :
    FloatOps.matmul (DotDims.plain m K N) prec xb wb (constant ⟨2, ![m, N]⟩ .f32 0x00000000#32) (ix2 p q)
      = FloatOps.dotGeneral (DotDims.plain M K N) prec' sched X W (ix2 ⟨o + p.val, ho p⟩ q) := by
  rw [PlainDot.matmul_zero_apply, PlainDot.dotGeneral_apply]
  exact Finset.sum_congr rfl fun k _ => by rw [hx p k, hw k q]

end Idealize.ShloMosaic.StripDot

end
-- ==== Proof.MatRegion0.lean ====
/-
  The first feature transform, one strip of rows per grid point.

  Grid point t of the first matrix-product region holds rows 5000·t … 5000·t + 4999 of the node features X and all
  of the weights W, and writes the strip's product with W back as the same rows of the result. Row r of X · W
  depends only on row r of X, so the twenty strips written back are the rows of the whole product: entry (r, j) is
  the sum over k of X (r, k) · W (k, j) over the extended reals, where rounding both operands to a narrower float
  format changes nothing.
-/
import proofs.«111457_j20349555048513_1_alg».proof.Proof.Gen.KernelIdeal.Frame
import proofs.«111457_j20349555048513_1_alg».proof.Proof.LibStripDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Layers

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The whole product X · W of the arrays the first region finds. -/
abbrev product0 (c : Dev nD) : FVec Ideal S100000x128 .f32 :=
  Host.dotGeneral (F := Ideal) (φ₁ := .f32) (φ₂ := .f32) (DotDims.plain 100000 128 128) none (V c main_arg2) (V c main_arg3)

/-- Point t reads strip t of X, all of W, and writes strip t of the result. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value is the strip's product with the weights. -/
theorem stored0 (x0 : Vec Ideal S5000x128 .f32) (x1 : Vec Ideal S128x128 .f32) :
    k0_pay1 x0 x1 = matmul (F := Ideal) (φ₁ := .bf16) (φ₂ := .bf16) (DotDims.plain 5000 128 128) none x0 x1
      (constant S5000x128 .f32 0x00000000#32) := rfl

/-- Point t's block of the first window holds rows 5000·t … 5000·t + 4999 of X. -/
theorem rows0 (c : Dev nD) (t : Fin cfg0.N) (p : Fin 5000) (k : Fin 128) (h : 5000 * t.val + p.val < 100000) :
    (iblk0 V c 0 t : Vec Ideal S5000x128 .f32) (ix2 p k)
      = (V c main_arg2 : FVec Ideal S100000x128 .f32) (ix2 ⟨5000 * t.val + p.val, h⟩ k) := by
  obtain ⟨e0, e1, -⟩ := blocks0 t
  unfold iblk0
  rw [View.read_apply]
  show V c main_arg2 (((cfg0.win 0).blk t).view.emb (ix2 p k)) = V c main_arg2 _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Every point's block of the second window is all of W. -/
theorem weights0 (c : Dev nD) (t : Fin cfg0.N) (k : Fin 128) (q : Fin 128) :
    (iblk0 V c 1 t : Vec Ideal S128x128 .f32) (ix2 k q) = (V c main_arg3 : FVec Ideal S128x128 .f32) (ix2 k q) := by
  obtain ⟨-, -, e2, e3, -⟩ := blocks0 t
  unfold iblk0
  rw [View.read_apply]
  show V c main_arg3 (((cfg0.win 1).blk t).view.emb (ix2 k q)) = V c main_arg3 _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is rows 5000·t … of the whole product. -/
theorem flushed0 (c : Dev nD) (t : Fin cfg0.N) :
    (dat0 V c).flushed 2 t = ((cfg0.win 2).blk t).view.read (Elt Ideal) (product0 V c) := by
  obtain ⟨-, -, -, -, e4, e5⟩ := blocks0 t
  have ht : t.val < 20 := lt_of_lt_of_eq t.isLt N_0
  have hrow : ∀ p' : Fin 5000, 5000 * t.val + p'.val < 100000 := fun p' => by have := p'.isLt; omega
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  rw [stored0]
  funext j
  obtain ⟨p, q, rfl⟩ : ∃ (p : Fin 5000) (q : Fin 128), j = ix2 p q := ⟨j 0, j 1, eq_ix2 j⟩
  have hemb : ((cfg0.win 2).blk t).view.emb (ix2 p q) = ix2 ⟨5000 * t.val + p.val, hrow p⟩ q :=
    funext fun a => Fin.ext (by
      match a with
      | ⟨0, _⟩ => show win0_2.index t (0 : Fin 2) * 5000 + 1 * p.val = 5000 * t.val + p.val; rw [e4]; omega
      | ⟨1, _⟩ => show win0_2.index t (1 : Fin 2) * 128 + 1 * q.val = q.val; rw [e5]; omega)
  rw [View.read_apply]
  show matmul (F := Ideal) (φ₁ := .bf16) (φ₂ := .bf16) (DotDims.plain 5000 128 128) none (iblk0 V c 0 t) (iblk0 V c 1 t)
      (constant S5000x128 .f32 0x00000000#32) (ix2 p q)
    = product0 V c (((cfg0.win 2).blk t).view.emb (ix2 p q))
  rw [hemb]
  exact StripDot.matmul_strip_apply none none .single (V c main_arg2) (V c main_arg3) (iblk0 V c 0 t) (iblk0 V c 1 t)
    (5000 * t.val) hrow (fun p' k => rows0 V c t p' k (hrow p')) (fun k q' => weights0 V c t k q') p q

/-- An index of the result is in point t's block iff its row is one of the strip's. -/
theorem mem_strip0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Row r lies in strip r / 5000: the twenty strips cover the result. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := blocks0 t
  have e4' : win0_2.index t (0 : Fin 2) = (i 0).val / 5000 := e4
  refine ⟨t, flush0_2 t, ?_⟩
  rw [mem_strip0]
  intro a
  match a with
  | ⟨0, _⟩ =>
    show win0_2.index t (0 : Fin 2) * 5000 ≤ (i 0).val ∧ (i 0).val < win0_2.index t (0 : Fin 2) * 5000 + 5000
    rw [e4']; omega
  | ⟨1, _⟩ =>
    show win0_2.index t (1 : Fin 2) * 128 ≤ (i 1).val ∧ (i 1).val < win0_2.index t (1 : Fin 2) * 128 + 128
    rw [e5]; omega

/-- After the region the result array holds the whole product X · W. -/
theorem final0 (c : Dev nD) : (dat0 V c).arrAt 2 cfg0.N = product0 V c :=
  (dat0 V c).arrAt_eq_of_cover 2 (product0 V c) (fun t _ => flushed0 V c t) cover0

end Cert.KernelIdeal.Layers

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibBiasStrip.lean ====
/-
  A bias row added to a strip of rows, and the sum clamped from below, read at an index.

  Let A be an M × b matrix and B a 1 × b row. On the whole matrix the host adds the row spread over the M rows and
  clamps the sum from below at a scalar; on a strip holding rows o, o+1, …, o+m−1 of A the vector operations add the
  same row spread over the m rows of the strip and clamp at the same scalar. Entry (p, q) of the strip's result is
  entry (o+p, q) of the whole result: both are max (A (o+p, q) + B (0, q)) z, respectively A (o+p, q) + B (0, q)
  without the clamp. Addition and maximum are taken entry by entry, so nothing about finiteness is needed.
-/
import Idealize.ShloMosaic.Lib.Pipeline.Value
import Idealize.ShloMosaic.Lib.ValueIdx
import proofs.«111457_j20349555048513_1_alg».proof.Proof.LibRowSpread

noncomputable section

namespace Idealize.ShloMosaic.BiasStrip

open Idealize.ShloMosaic Idealize.ShloMosaic.ValueIdx

variable {m M b : Nat}

/-- A strip's rows plus the bias row, at (p, q), is the whole matrix plus the spread row at (o + p, q). -/
theorem addRow_strip_apply
    (A : FVec Ideal ⟨2, ![M, b]⟩ .f32) (B : FVec Ideal ⟨2, ![1, b]⟩ .f32)
    (xb : FVec Ideal ⟨2, ![m, b]⟩ .f32) (bb : FVec Ideal ⟨2, ![1, b]⟩ .f32)
    (hc : (⟨2, ![m, b]⟩ : Shape).ShapeCasts ⟨2, ![m, b]⟩) (hc1 : (⟨2, ![1, b]⟩ : Shape).ShapeCasts ⟨2, ![1, b]⟩)
    (hv : (⟨2, ![1, b]⟩ : Shape).Broadcasts ⟨2, ![m, b]⟩)
    (hh : (⟨2, ![1, b]⟩ : Shape).BroadcastsInDim ⟨2, ![M, b]⟩ ![0, 1])
    (o : Nat) (ho : ∀ p : Fin m, o + p.val < M)
    (hx : ∀ (p : Fin m) (q : Fin b), xb (ix2 p q) = A (ix2 ⟨o + p.val, ho p⟩ q))
    (hb : ∀ q : Fin b, bb (ix2 (0 : Fin 1) q) = B (ix2 (0 : Fin 1) q)) (p : Fin m) (q : Fin b) :
    addf (shapeCast ⟨2, ![m, b]⟩ xb hc) (broadcastTo ⟨2, ![m, b]⟩ (shapeCast ⟨2, ![1, b]⟩ bb hc1) hv) (ix2 p q)
      = addf A (broadcastInDim ⟨2, ![M, b]⟩ ![0, 1] hh B) (ix2 ⟨o + p.val, ho p⟩ q) := by
  rw [addf_apply, addf_apply, shapeCast_self, shapeCast_self, RowSpread.rowBcast_apply, RowSpread.rowInDim2_apply,
    hx, hb]

/-- The same sum clamped from below at the scalar with bits z. -/
theorem addRow_max_strip_apply
    (A : FVec Ideal ⟨2, ![M, b]⟩ .f32) (B : FVec Ideal ⟨2, ![1, b]⟩ .f32)
    (xb : FVec Ideal ⟨2, ![m, b]⟩ .f32) (bb : FVec Ideal ⟨2, ![1, b]⟩ .f32)
    (hc : (⟨2, ![m, b]⟩ : Shape).ShapeCasts ⟨2, ![m, b]⟩) (hc1 : (⟨2, ![1, b]⟩ : Shape).ShapeCasts ⟨2, ![1, b]⟩)
    (hv : (⟨2, ![1, b]⟩ : Shape).Broadcasts ⟨2, ![m, b]⟩)
    (hh : (⟨2, ![1, b]⟩ : Shape).BroadcastsInDim ⟨2, ![M, b]⟩ ![0, 1])
    (h0 : (⟨0, ![]⟩ : Shape).BroadcastsInDim ⟨2, ![M, b]⟩ ![]) (z : BitVec 32)
    (o : Nat) (ho : ∀ p : Fin m, o + p.val < M)
    (hx : ∀ (p : Fin m) (q : Fin b), xb (ix2 p q) = A (ix2 ⟨o + p.val, ho p⟩ q))
    (hb : ∀ q : Fin b, bb (ix2 (0 : Fin 1) q) = B (ix2 (0 : Fin 1) q)) (p : Fin m) (q : Fin b) :
    maximumf (addf (shapeCast ⟨2, ![m, b]⟩ xb hc) (broadcastTo ⟨2, ![m, b]⟩ (shapeCast ⟨2, ![1, b]⟩ bb hc1) hv))
        (broadcast ⟨2, ![m, b]⟩ (Scalar.ofBits (F := Ideal) .f32 z)) (ix2 p q)
      = maximumf (addf A (broadcastInDim ⟨2, ![M, b]⟩ ![0, 1] hh B))
          (broadcastInDim ⟨2, ![M, b]⟩ ![] h0 (constant (F := Ideal) ⟨0, ![]⟩ .f32 z)) (ix2 ⟨o + p.val, ho p⟩ q) := by
  rw [maximumf_apply, maximumf_apply, addRow_strip_apply A B xb bb hc hc1 hv hh o ho hx hb p q, broadcast_apply,
    RowSpread.scalarInDim_apply, constant_apply]
  rfl

end Idealize.ShloMosaic.BiasStrip

end
-- ==== Proof.BiasRegion1.lean ====
/-
  The first layer's bias and activation, one strip of rows per grid point.

  Grid point t of the region holds rows 5000·t … 5000·t + 4999 of the aggregated features A and the bias as a
  one-row matrix B; it adds the row to every row of the strip, clamps the sums from below at zero and writes them back
  as the same rows of the result. Entry (r, j) of what is written depends only on A (r, j) and B (0, j), so the
  twenty strips written back are the rows of max (A + B spread over all rows) 0 taken on the whole matrix at once.
-/
import proofs.«111457_j20349555048513_1_alg».proof.Proof.Gen.KernelIdeal.Frame
import proofs.«111457_j20349555048513_1_alg».proof.Proof.LibBiasStrip
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Layers

open Cert.KernelIdeal Cert.KernelIdeal.Gen

variable (V : (c : Dev nD) → (b : Ref sig .tc) → Buf (Elt Ideal) ((c : Thread nD τ).loc b))

theorem zero_offsets1 : (![0, 0] : Fin 2 → Nat) = fun _ => 0 := funext fun a => by fin_cases a <;> rfl

/-- max (A + B spread over the rows) 0 on the whole arrays the region finds. -/
abbrev biased1 (hh : S1x128.BroadcastsInDim S100000x128 (![0, 1] : Fin 2 → Fin S100000x128.rank)) (c : Dev nD) :
    FVec Ideal S100000x128 .f32 :=
  maximumf (F := Ideal) (addf (F := Ideal) (V c main_v45) (broadcastInDim S100000x128 ![0, 1] hh (V c main_v46)))
    (broadcastInDim S100000x128 ![] bcast_S_S100000x128 (constant (F := Ideal) S_ .f32 0x00000000#32))

/-- Point t reads strip t of A, the whole bias row, and writes strip t of the result. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored value: the strip plus the spread row, clamped at the scalar zero. -/
theorem stored1 (x0 : Vec Ideal S5000x128 .f32) (x1 : Vec Ideal S1x128 .f32) :
    k1_pay1 x0 x1 = maximumf (F := Ideal) (addf (F := Ideal) (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) := rfl

/-- Point t's block of the first window holds rows 5000·t … 5000·t + 4999 of A. -/
theorem rows1 (c : Dev nD) (t : Fin cfg1.N) (p : Fin 5000) (q : Fin 128) (h : 5000 * t.val + p.val < 100000) :
    (iblk1 V c 0 t : Vec Ideal S5000x128 .f32) (ix2 p q)
      = (V c main_v45 : FVec Ideal S100000x128 .f32) (ix2 ⟨5000 * t.val + p.val, h⟩ q) := by
  obtain ⟨e0, e1, -⟩ := blocks1 t
  unfold iblk1
  rw [View.read_apply]
  show V c main_v45 (((cfg1.win 0).blk t).view.emb (ix2 p q)) = V c main_v45 _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- Every point's block of the second window is the whole bias row. -/
theorem biasRow1 (c : Dev nD) (t : Fin cfg1.N) (q : Fin 128) :
    (iblk1 V c 1 t : Vec Ideal S1x128 .f32) (ix2 (0 : Fin 1) q) = (V c main_v46 : FVec Ideal S1x128 .f32) (ix2 (0 : Fin 1) q) := by
  obtain ⟨-, -, e2, e3, -⟩ := blocks1 t
  unfold iblk1
  rw [View.read_apply]
  show V c main_v46 (((cfg1.win 1).blk t).view.emb (ix2 (0 : Fin 1) q)) = V c main_v46 _
  refine congrArg _ (funext fun a => Fin.ext ?_)
  match a with
  | ⟨0, _⟩ => show win1_1.index t (0 : Fin 2) * 1 + 1 * 0 = 0; rw [e2]
  | ⟨1, _⟩ => show win1_1.index t (1 : Fin 2) * 128 + 1 * q.val = q.val; rw [e3]; omega

/-- What point t writes back is rows 5000·t … of the whole result. -/
theorem flushed1 (hh : S1x128.BroadcastsInDim S100000x128 (![0, 1] : Fin 2 → Fin S100000x128.rank)) (c : Dev nD)
    (t : Fin cfg1.N) :
    (dat1 V c).flushed 2 t = ((cfg1.win 2).blk t).view.read (Elt Ideal) (biased1 V hh c) := by
  obtain ⟨-, -, -, -, e4, e5⟩ := blocks1 t
  have ht : t.val < 20 := lt_of_lt_of_eq t.isLt N_1
  have hrow : ∀ p' : Fin 5000, 5000 * t.val + p'.val < 100000 := fun p' => by have := p'.isLt; omega
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S1x128) zero_offsets1]
  rw [stored1]
  funext j
  obtain ⟨p, q, rfl⟩ : ∃ (p : Fin 5000) (q : Fin 128), j = ix2 p q := ⟨j 0, j 1, eq_ix2 j⟩
  have hemb : ((cfg1.win 2).blk t).view.emb (ix2 p q) = ix2 ⟨5000 * t.val + p.val, hrow p⟩ q :=
    funext fun a => Fin.ext (by
      match a with
      | ⟨0, _⟩ => show win1_2.index t (0 : Fin 2) * 5000 + 1 * p.val = 5000 * t.val + p.val; rw [e4]; omega
      | ⟨1, _⟩ => show win1_2.index t (1 : Fin 2) * 128 + 1 * q.val = q.val; rw [e5]; omega)
  rw [View.read_apply]
  show maximumf (F := Ideal) (addf (F := Ideal) (shapeCast S5000x128 (iblk1 V c 0 t) shapeCasts_S5000x128_S5000x128)
        (broadcastTo S5000x128 (shapeCast S1x128 (iblk1 V c 1 t) shapeCasts_S1x128_S1x128) broadcasts_S1x128_S5000x128))
      (broadcast S5000x128 (Scalar.ofBits (F := Ideal) .f32 0x00000000#32)) (ix2 p q)
    = biased1 V hh c (((cfg1.win 2).blk t).view.emb (ix2 p q))
  rw [hemb]
  exact BiasStrip.addRow_max_strip_apply (V c main_v45) (V c main_v46) (iblk1 V c 0 t) (iblk1 V c 1 t)
    shapeCasts_S5000x128_S5000x128 shapeCasts_S1x128_S1x128 broadcasts_S1x128_S5000x128 hh bcast_S_S100000x128
    0x00000000#32 (5000 * t.val) hrow (fun p' q' => rows1 V c t p' q' (hrow p')) (fun q' => biasRow1 V c t q') p q

/-- An index of the result is in point t's block iff its row is one of the strip's. -/
theorem mem_strip1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Row r lies in strip r / 5000: the twenty strips cover the result. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, e4, e5⟩ := blocks1 t
  have e4' : win1_2.index t (0 : Fin 2) = (i 0).val / 5000 := e4
  refine ⟨t, flush1_2 t, ?_⟩
  rw [mem_strip1]
  intro a
  match a with
  | ⟨0, _⟩ =>
    show win1_2.index t (0 : Fin 2) * 5000 ≤ (i 0).val ∧ (i 0).val < win1_2.index t (0 : Fin 2) * 5000 + 5000
    rw [e4']; omega
  | ⟨1, _⟩ =>
    show win1_2.index t (1 : Fin 2) * 128 ≤ (i 1).val ∧ (i 1).val < win1_2.index t (1 : Fin 2) * 128 + 128
    rw [e5]; omega

/-- After the region the result array holds max (A + B spread over the rows) 0. -/
theorem final1 (hh : S1x128.BroadcastsInDim S100000x128 (![0, 1] : Fin 2 → Fin S100000x128.rank)) (c : Dev nD) :
    (dat1 V c).arrAt 2 cfg1.N = biased1 V hh c :=
  (dat1 V c).arrAt_eq_of_cover 2 (biased1 V hh c) (fun t _ => flushed1 V hh c t) cover1

end Cert.KernelIdeal.Layers

end
-- ==== Proof.LibRowCast.lean ====
/-
  A vector laid out as a one-row matrix: the reshape and the broadcast along axis 1 are the same array.

  Both place entry j of a vector of n entries at (0, j) of a 1 × n matrix.
-/
import Idealize.ShloMosaic.Lib.Pipeline.Value
import Idealize.ShloMosaic.Lib.ValueIdx

noncomputable section

namespace Idealize.ShloMosaic.RowCast

open Idealize.ShloMosaic Idealize.ShloMosaic.ValueIdx

variable {n : Nat} {α : Type}

/-- A vector reshaped to one row is the vector broadcast along axis 1 of a one-row matrix. -/
theorem shapeCast_row_eq_broadcastInDim (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast

end
-- ==== Proof.Layer1.lean ====
/-
  The first graph-convolution layer, boundary by boundary.

  Region 0 leaves the product of the node features with the first weights in its result array; the host stretch after it
  gathers the product's rows at the augmented sources, scales each by its edge's normalisation and sums them into the
  augmented targets, and views the first bias as one row; region 1 adds the row and clamps at zero. At each boundary the
  buffer just written holds the reference's stage of the same name: the product is the reference's dot_general, the
  host operations are the reference's own applied to equal operands, and a vector viewed as one row is the same array
  as the vector broadcast along the second axis.
-/
import proofs.«111457_j20349555048513_1_alg».proof.Proof.Prologue
import proofs.«111457_j20349555048513_1_alg».proof.Proof.MatRegion0
import proofs.«111457_j20349555048513_1_alg».proof.Proof.BiasRegion1
import proofs.«111457_j20349555048513_1_alg».proof.Proof.LibRowCast
import Idealize.ShloMosaic.Lib.StableHlo.Run

noncomputable section

open Idealize.ShloMosaic Idealize.ShloMosaic.TcCoe Idealize.SL.Sem Idealize.ShloMosaic.StableHlo

namespace Cert.KernelIdeal.Layers

open Cert.KernelIdeal Cert.KernelIdeal.Gen
open Cert.ReferenceIdeal.ReadP

variable (m : (ℓ : Loc nD τ sig) → Buf (Elt Ideal) ℓ) (ρ : Dev nD → PrngReg) (c : Dev nD)

/-- Region 0 reads and writes none of the carried buffers. -/
theorem carried_not0 : ∀ b ∈ carriedRefs, ∀ w, Pipeline.arrRef spec0 w ≠ b := by decide
/-- Region 1 reads and writes none of the carried buffers. -/
theorem carried_not1 : ∀ b ∈ carriedRefs, ∀ w, Pipeline.arrRef spec1 w ≠ b := by decide

/-- Region 0 leaves the carried buffers as they were. -/
theorem carried4 : Carried m c (W4 m ρ c) :=
  (carried3 m ρ c).of_agree m c fun b hb => W4_of_ne m ρ c b (carried_not0 b hb)

/-- After region 0 its result array holds the reference's first product. -/
theorem hidden1 : W4 m ρ c (Proc.devRef .tc main_v32) = val_main_v32 (F := Ideal) (arg m c main_arg2) (arg m c main_arg3) := by
  obtain ⟨hx, hw⟩ := features3 m ρ c
  refine (W4_arr m ρ c 2).trans ((final0 (V3 m ρ) c).trans ?_)
  show Host.dotGeneral (F := Ideal) (φ₁ := .f32) (φ₂ := .f32) (DotDims.plain 100000 128 128) none
      (W3 m ρ c (Proc.devRef .tc main_arg2)) (W3 m ρ c (Proc.devRef .tc main_arg3)) = _
  rw [hx, hw]
  rfl

/-- The stretch leaves the carried buffers as they were. -/
theorem carried5 : Carried m c (W5 m ρ c) :=
  (carried4 m ρ c).of_agree m c fun b hb => keptD (W4 m ρ c) b (carried_notD b hb)

set_option maxHeartbeats 4000000 in
/-- From any contents holding the reference's augmented index vectors, edge normalisation and layer-1 product, the
    stretch computes the reference's neighbourhood sums. -/
theorem aggregate1_of (W : Valuation τ sig (Elt Ideal))
    (hs : W (Proc.devRef .tc main_v5) = val_main_v5 (F := Ideal) (arg m c main_arg1))
    (hd : W (Proc.devRef .tc main_v6) = val_main_v6 (F := Ideal) (arg m c main_arg1))
    (hn : W (Proc.devRef .tc main_v31) = val_main_v31 (F := Ideal) (arg m c main_arg1))
    (hh : W (Proc.devRef .tc main_v32) = val_main_v32 (F := Ideal) (arg m c main_arg2) (arg m c main_arg3)) :
    StableHlo.after hostOps1 W (Proc.devRef .tc main_v45) = val_main_v45 (F := Ideal) (arg m c main_arg1) (arg m c main_arg2) (arg m c main_arg3) := by
  after_results
  rw [hs, hd, hn, hh]
  rfl

/-- The neighbourhood sums of the first product are the reference's. -/
theorem aggregated1 : W5 m ρ c (Proc.devRef .tc main_v45) = val_main_v45 (F := Ideal) (arg m c main_arg1) (arg m c main_arg2) (arg m c main_arg3) :=
  aggregate1_of m c (W4 m ρ c) (carried4 m ρ c).src (carried4 m ρ c).dst (carried4 m ρ c).norm (hidden1 m ρ c)

set_option maxHeartbeats 4000000 in
/-- The bias viewed as one row is the reference's bias broadcast along the second axis. -/
theorem biasRow1_of (W : Valuation τ sig (Elt Ideal))
    (hb : W (Proc.devRef .tc main_arg4) = arg m c main_arg4) :
    StableHlo.after hostOps1 W (Proc.devRef .tc main_v46) = val_main_v46 (F := Ideal) (arg m c main_arg4) := by
  after_results
  rw [hb]
  show shapeCast S1x128 (arg m c main_arg4) shapeCasts_S128_S1x128
    = broadcastInDim S1x128 ![1] Cert.ReferenceIdeal.Gen.bcast_S128_S1x128_1 (arg m c main_arg4)
  exact RowCast.shapeCast_row_eq_broadcastInDim _ _ _

theorem biasRow1_at5 : W5 m ρ c (Proc.devRef .tc main_v46) = val_main_v46 (F := Ideal) (arg m c main_arg4) :=
  biasRow1_of m c (W4 m ρ c) (carried4 m ρ c).bias1

/-- Region 1 leaves the carried buffers as they were. -/
theorem carried6 : Carried m c (W6 m ρ c) :=
  (carried5 m ρ c).of_agree m c fun b hb => W6_of_ne m ρ c b (carried_not1 b hb)

/-- After region 1 its result array holds the reference's first activations. -/
theorem activated1 : W6 m ρ c (Proc.devRef .tc main_v47) = val_main_v49 (F := Ideal) (arg m c main_arg1) (arg m c main_arg2) (arg m c main_arg3) (arg m c main_arg4) := by
  refine (W6_arr m ρ c 2).trans ((final1 (V5 m ρ) Cert.ReferenceIdeal.Gen.bcast_S1x128_S100000x128_0_1 c).trans ?_)
  show maximumf (F := Ideal) (addf (F := Ideal) (W5 m ρ c (Proc.devRef .tc main_v45))
        (broadcastInDim S100000x128 ![0, 1] Cert.ReferenceIdeal.Gen.bcast_S1x128_S100000x128_0_1
          (W5 m ρ c (Proc.devRef .tc main_v46))))
      (broadcastInDim S100000x128 ![] bcast_S_S100000x128 (constant (F := Ideal) S_ .f32 0x00000000#32)) = _
  rw [aggregated1 m ρ c, biasRow1_at5 m ρ c]
  rfl

end Cert.KernelIdeal.Layers

end
-- ==== Proof.MatRegion2.lean ====
/-
  The second feature transform, one strip of rows per grid point.

  Grid point t of the second matrix-product region holds rows 5000·t … 5000·t + 4999 of the first layer's activations
  X and all of the second layer's weights W, and writes the strip's product with W back as the same rows of the result. Row r of X · W
  depends only on row r of X, so the twenty strips written back are the rows of the whole product: entry (r, j) is
  the sum over k of X (r, k) · W (k, j) over the extended reals, where rounding both operands to a narrower float
  format changes nothing.
-/
import proofs.«111457_j20349555048513_1_alg».proof.Proof.Gen.KernelIdeal.Frame
import proofs.«111457_j20349555048513_1_alg».proof.Proof.LibStripDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Layers

open Cert.KernelIdeal Cert.KernelIdeal.Gen

variable (V : (c : Dev nD) → (b : Ref sig .tc) → Buf (Elt Ideal) ((c : Thread nD τ).loc b))

theorem zero_offsets2 : (![0, 0] : Fin 2 → Nat) = fun _ => 0 := funext fun a => by fin_cases a <;> rfl

/-- The whole product X · W of the arrays the region finds. -/
abbrev product2 (c : Dev nD) : FVec Ideal S100000x128 .f32 :=
  Host.dotGeneral (F := Ideal) (φ₁ := .f32) (φ₂ := .f32) (DotDims.plain 100000 128 128) none (V c main_v47) (V c main_arg5)

/-- Point t reads strip t of X, all of W, and writes strip t of the result. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value is the strip's product with the weights. -/
theorem stored2 (x0 : Vec Ideal S5000x128 .f32) (x1 : Vec Ideal S128x128 .f32) :
    k2_pay1 x0 x1 = matmul (F := Ideal) (φ₁ := .bf16) (φ₂ := .bf16) (DotDims.plain 5000 128 128) none x0 x1
      (constant S5000x128 .f32 0x00000000#32) := by
  show matmul (F := Ideal) (φ₁ := .bf16) (φ₂ := .bf16) dot_S5000x128_S128x128_S5000x128_1_0_0_1_n_n none
      (shapeCast S5000x128 x0 shapeCasts_S5000x128_S5000x128) x1 (constant S5000x128 .f32 0x00000000#32) = _
  rw [shapeCast_self]
  rfl

/-- Point t's block of the first window holds rows 5000·t … 5000·t + 4999 of X. -/
theorem rows2 (c : Dev nD) (t : Fin cfg2.N) (p : Fin 5000) (k : Fin 128) (h : 5000 * t.val + p.val < 100000) :
    (iblk2 V c 0 t : Vec Ideal S5000x128 .f32) (ix2 p k)
      = (V c main_v47 : FVec Ideal S100000x128 .f32) (ix2 ⟨5000 * t.val + p.val, h⟩ k) := by
  obtain ⟨e0, e1, -⟩ := blocks2 t
  unfold iblk2
  rw [View.read_apply]
  show V c main_v47 (((cfg2.win 0).blk t).view.emb (ix2 p k)) = V c main_v47 _
  refine congrArg _ (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- Every point's block of the second window is all of W. -/
theorem weights2 (c : Dev nD) (t : Fin cfg2.N) (k : Fin 128) (q : Fin 128) :
    (iblk2 V c 1 t : Vec Ideal S128x128 .f32) (ix2 k q) = (V c main_arg5 : FVec Ideal S128x128 .f32) (ix2 k q) := by
  obtain ⟨-, -, e2, e3, -⟩ := blocks2 t
  unfold iblk2
  rw [View.read_apply]
  show V c main_arg5 (((cfg2.win 1).blk t).view.emb (ix2 k q)) = V c main_arg5 _
  refine congrArg _ (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is rows 5000·t … of the whole product. -/
theorem flushed2 (c : Dev nD) (t : Fin cfg2.N) :
    (dat2 V c).flushed 2 t = ((cfg2.win 2).blk t).view.read (Elt Ideal) (product2 V c) := by
  obtain ⟨-, -, -, -, e4, e5⟩ := blocks2 t
  have ht : t.val < 20 := lt_of_lt_of_eq t.isLt N_2
  have hrow : ∀ p' : Fin 5000, 5000 * t.val + p'.val < 100000 := fun p' => by have := p'.isLt; omega
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x128) zero_offsets2]
  rw [stored2]
  funext j
  obtain ⟨p, q, rfl⟩ : ∃ (p : Fin 5000) (q : Fin 128), j = ix2 p q := ⟨j 0, j 1, eq_ix2 j⟩
  have hemb : ((cfg2.win 2).blk t).view.emb (ix2 p q) = ix2 ⟨5000 * t.val + p.val, hrow p⟩ q :=
    funext fun a => Fin.ext (by
      match a with
      | ⟨0, _⟩ => show win2_2.index t (0 : Fin 2) * 5000 + 1 * p.val = 5000 * t.val + p.val; rw [e4]; omega
      | ⟨1, _⟩ => show win2_2.index t (1 : Fin 2) * 128 + 1 * q.val = q.val; rw [e5]; omega)
  rw [View.read_apply]
  show matmul (F := Ideal) (φ₁ := .bf16) (φ₂ := .bf16) (DotDims.plain 5000 128 128) none (iblk2 V c 0 t) (iblk2 V c 1 t)
      (constant S5000x128 .f32 0x00000000#32) (ix2 p q)
    = product2 V c (((cfg2.win 2).blk t).view.emb (ix2 p q))
  rw [hemb]
  exact StripDot.matmul_strip_apply none none .single (V c main_v47) (V c main_arg5) (iblk2 V c 0 t) (iblk2 V c 1 t)
    (5000 * t.val) hrow (fun p' k => rows2 V c t p' k (hrow p')) (fun k q' => weights2 V c t k q') p q

/-- An index of the result is in point t's block iff its row is one of the strip's. -/
theorem mem_strip2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- Row r lies in strip r / 5000: the twenty strips cover the result. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, e4, e5⟩ := blocks2 t
  have e4' : win2_2.index t (0 : Fin 2) = (i 0).val / 5000 := e4
  refine ⟨t, flush2_2 t, ?_⟩
  rw [mem_strip2]
  intro a
  match a with
  | ⟨0, _⟩ =>
    show win2_2.index t (0 : Fin 2) * 5000 ≤ (i 0).val ∧ (i 0).val < win2_2.index t (0 : Fin 2) * 5000 + 5000
    rw [e4']; omega
  | ⟨1, _⟩ =>
    show win2_2.index t (1 : Fin 2) * 128 ≤ (i 1).val ∧ (i 1).val < win2_2.index t (1 : Fin 2) * 128 + 128
    rw [e5]; omega

/-- After the region the result array holds the whole product X · W. -/
theorem final2 (c : Dev nD) : (dat2 V c).arrAt 2 cfg2.N = product2 V c :=
  (dat2 V c).arrAt_eq_of_cover 2 (product2 V c) (fun t _ => flushed2 V c t) cover2

end Cert.KernelIdeal.Layers

end
-- ==== Proof.BiasRegion3.lean ====
/-
  The second layer's bias and activation, one strip of rows per grid point.

  Grid point t of the region holds rows 5000·t … 5000·t + 4999 of the aggregated features A and the bias as a
  one-row matrix B; it adds the row to every row of the strip, clamps the sums from below at zero and writes them back
  as the same rows of the result. Entry (r, j) of what is written depends only on A (r, j) and B (0, j), so the
  twenty strips written back are the rows of max (A + B spread over all rows) 0 taken on the whole matrix at once.
-/
import proofs.«111457_j20349555048513_1_alg».proof.Proof.Gen.KernelIdeal.Frame
import proofs.«111457_j20349555048513_1_alg».proof.Proof.LibBiasStrip
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Layers

open Cert.KernelIdeal Cert.KernelIdeal.Gen

variable (V : (c : Dev nD) → (b : Ref sig .tc) → Buf (Elt Ideal) ((c : Thread nD τ).loc b))

theorem zero_offsets3 : (![0, 0] : Fin 2 → Nat) = fun _ => 0 := funext fun a => by fin_cases a <;> rfl

/-- max (A + B spread over the rows) 0 on the whole arrays the region finds. -/
abbrev biased3 (hh : S1x128.BroadcastsInDim S100000x128 (![0, 1] : Fin 2 → Fin S100000x128.rank)) (c : Dev nD) :
    FVec Ideal S100000x128 .f32 :=
  maximumf (F := Ideal) (addf (F := Ideal) (V c main_v61) (broadcastInDim S100000x128 ![0, 1] hh (V c main_v62)))
    (broadcastInDim S100000x128 ![] bcast_S_S100000x128 (constant (F := Ideal) S_ .f32 0x00000000#32))

/-- Point t reads strip t of A, the whole bias row, and writes strip t of the result. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's stored value: the strip plus the spread row, clamped at the scalar zero. -/
theorem stored3 (x0 : Vec Ideal S5000x128 .f32) (x1 : Vec Ideal S1x128 .f32) :
    k3_pay1 x0 x1 = maximumf (F := Ideal) (addf (F := Ideal) (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) := rfl

/-- Point t's block of the first window holds rows 5000·t … 5000·t + 4999 of A. -/
theorem rows3 (c : Dev nD) (t : Fin cfg3.N) (p : Fin 5000) (q : Fin 128) (h : 5000 * t.val + p.val < 100000) :
    (iblk3 V c 0 t : Vec Ideal S5000x128 .f32) (ix2 p q)
      = (V c main_v61 : FVec Ideal S100000x128 .f32) (ix2 ⟨5000 * t.val + p.val, h⟩ q) := by
  obtain ⟨e0, e1, -⟩ := blocks3 t
  unfold iblk3
  rw [View.read_apply]
  show V c main_v61 (((cfg3.win 0).blk t).view.emb (ix2 p q)) = V c main_v61 _
  refine congrArg _ (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 128 + 1 * q.val = q.val; rw [e1]; omega

/-- Every point's block of the second window is the whole bias row. -/
theorem biasRow3 (c : Dev nD) (t : Fin cfg3.N) (q : Fin 128) :
    (iblk3 V c 1 t : Vec Ideal S1x128 .f32) (ix2 (0 : Fin 1) q) = (V c main_v62 : FVec Ideal S1x128 .f32) (ix2 (0 : Fin 1) q) := by
  obtain ⟨-, -, e2, e3, -⟩ := blocks3 t
  unfold iblk3
  rw [View.read_apply]
  show V c main_v62 (((cfg3.win 1).blk t).view.emb (ix2 (0 : Fin 1) q)) = V c main_v62 _
  refine congrArg _ (funext fun a => Fin.ext ?_)
  match a with
  | ⟨0, _⟩ => show win3_1.index t (0 : Fin 2) * 1 + 1 * 0 = 0; rw [e2]
  | ⟨1, _⟩ => show win3_1.index t (1 : Fin 2) * 128 + 1 * q.val = q.val; rw [e3]; omega

/-- What point t writes back is rows 5000·t … of the whole result. -/
theorem flushed3 (hh : S1x128.BroadcastsInDim S100000x128 (![0, 1] : Fin 2 → Fin S100000x128.rank)) (c : Dev nD)
    (t : Fin cfg3.N) :
    (dat3 V c).flushed 2 t = ((cfg3.win 2).blk t).view.read (Elt Ideal) (biased3 V hh c) := by
  obtain ⟨-, -, -, -, e4, e5⟩ := blocks3 t
  have ht : t.val < 20 := lt_of_lt_of_eq t.isLt N_3
  have hrow : ∀ p' : Fin 5000, 5000 * t.val + p'.val < 100000 := fun p' => by have := p'.isLt; omega
  show (cfg3.win 2).cut (grid3.coords t) ((dat3 V c).after 2 t) = _
  rw [after3_2]
  unfold out3_2
  rw [View.canon_unit_zero zero_offsets3]
  simp only [View.ld_unit_zero (S := S5000x128) zero_offsets3, View.ld_unit_zero (S := S1x128) zero_offsets3]
  rw [stored3]
  funext j
  obtain ⟨p, q, rfl⟩ : ∃ (p : Fin 5000) (q : Fin 128), j = ix2 p q := ⟨j 0, j 1, eq_ix2 j⟩
  have hemb : ((cfg3.win 2).blk t).view.emb (ix2 p q) = ix2 ⟨5000 * t.val + p.val, hrow p⟩ q :=
    funext fun a => Fin.ext (by
      match a with
      | ⟨0, _⟩ => show win3_2.index t (0 : Fin 2) * 5000 + 1 * p.val = 5000 * t.val + p.val; rw [e4]; omega
      | ⟨1, _⟩ => show win3_2.index t (1 : Fin 2) * 128 + 1 * q.val = q.val; rw [e5]; omega)
  rw [View.read_apply]
  show maximumf (F := Ideal) (addf (F := Ideal) (shapeCast S5000x128 (iblk3 V c 0 t) shapeCasts_S5000x128_S5000x128)
        (broadcastTo S5000x128 (shapeCast S1x128 (iblk3 V c 1 t) shapeCasts_S1x128_S1x128) broadcasts_S1x128_S5000x128))
      (broadcast S5000x128 (Scalar.ofBits (F := Ideal) .f32 0x00000000#32)) (ix2 p q)
    = biased3 V hh c (((cfg3.win 2).blk t).view.emb (ix2 p q))
  rw [hemb]
  exact BiasStrip.addRow_max_strip_apply (V c main_v61) (V c main_v62) (iblk3 V c 0 t) (iblk3 V c 1 t)
    shapeCasts_S5000x128_S5000x128 shapeCasts_S1x128_S1x128 broadcasts_S1x128_S5000x128 hh bcast_S_S100000x128
    0x00000000#32 (5000 * t.val) hrow (fun p' q' => rows3 V c t p' q' (hrow p')) (fun q' => biasRow3 V c t q') p q

/-- An index of the result is in point t's block iff its row is one of the strip's. -/
theorem mem_strip3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- Row r lies in strip r / 5000: the twenty strips cover the result. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, e4, e5⟩ := blocks3 t
  have e4' : win3_2.index t (0 : Fin 2) = (i 0).val / 5000 := e4
  refine ⟨t, flush3_2 t, ?_⟩
  rw [mem_strip3]
  intro a
  match a with
  | ⟨0, _⟩ =>
    show win3_2.index t (0 : Fin 2) * 5000 ≤ (i 0).val ∧ (i 0).val < win3_2.index t (0 : Fin 2) * 5000 + 5000
    rw [e4']; omega
  | ⟨1, _⟩ =>
    show win3_2.index t (1 : Fin 2) * 128 ≤ (i 1).val ∧ (i 1).val < win3_2.index t (1 : Fin 2) * 128 + 128
    rw [e5]; omega

/-- After the region the result array holds max (A + B spread over the rows) 0. -/
theorem final3 (hh : S1x128.BroadcastsInDim S100000x128 (![0, 1] : Fin 2 → Fin S100000x128.rank)) (c : Dev nD) :
    (dat3 V c).arrAt 2 cfg3.N = biased3 V hh c :=
  (dat3 V c).arrAt_eq_of_cover 2 (biased3 V hh c) (fun t _ => flushed3 V hh c t) cover3

end Cert.KernelIdeal.Layers

end
-- ==== Proof.Layer2.lean ====
/-
  The second graph-convolution layer, boundary by boundary.

  Region 2 multiplies the first layer's activations by the second weights; the host stretch after it gathers, scales and
  sums over each node's neighbourhood and views the second bias as one row; region 3 adds the row and clamps at zero. As
  in the first layer, at each boundary the buffer just written holds the reference's stage of the same name.
-/
import proofs.«111457_j20349555048513_1_alg».proof.Proof.Layer1
import proofs.«111457_j20349555048513_1_alg».proof.Proof.MatRegion2
import proofs.«111457_j20349555048513_1_alg».proof.Proof.BiasRegion3
import Idealize.ShloMosaic.Lib.StableHlo.Run

noncomputable section

open Idealize.ShloMosaic Idealize.ShloMosaic.TcCoe Idealize.SL.Sem Idealize.ShloMosaic.StableHlo

namespace Cert.KernelIdeal.Layers

open Cert.KernelIdeal Cert.KernelIdeal.Gen
open Cert.ReferenceIdeal.ReadP

variable (m : (ℓ : Loc nD τ sig) → Buf (Elt Ideal) ℓ) (ρ : Dev nD → PrngReg) (c : Dev nD)

/-- Of the carried buffers region 2 touches only its weights, which it reads. -/
theorem carried_not2 : ∀ b ∈ carriedRefs, b ≠ main_arg5 → ∀ w, Pipeline.arrRef spec2 w ≠ b := by decide
/-- Region 3 reads and writes none of the carried buffers. -/
theorem carried_not3 : ∀ b ∈ carriedRefs, ∀ w, Pipeline.arrRef spec3 w ≠ b := by decide

/-- Region 2 leaves the carried buffers as they were: an array it only reads comes out as it went in, and the others are
    none of its arrays. -/
theorem carried7 : Carried m c (W7 m ρ c) :=
  (carried6 m ρ c).of_agree m c fun b hb => by
    by_cases hw : b = main_arg5
    · subst hw
      exact (W7_arr m ρ c 1).trans (((dat2 (V6 m ρ) c).arrAt_in 1 rfl _).trans (A_eq2 (V6 m ρ) c 1))
    · exact W7_of_ne m ρ c b (carried_not2 b hb hw)

/-- After region 2 its result array holds the reference's second product. -/
theorem hidden2 : W7 m ρ c (Proc.devRef .tc main_v48) = val_main_v50 (F := Ideal) (arg m c main_arg1) (arg m c main_arg2) (arg m c main_arg3) (arg m c main_arg4) (arg m c main_arg5) := by
  have hC := carried6 m ρ c
  refine (W7_arr m ρ c 2).trans ((final2 (V6 m ρ) c).trans ?_)
  show Host.dotGeneral (F := Ideal) (φ₁ := .f32) (φ₂ := .f32) (DotDims.plain 100000 128 128) none
      (W6 m ρ c (Proc.devRef .tc main_v47)) (W6 m ρ c (Proc.devRef .tc main_arg5)) = _
  rw [activated1 m ρ c, hC.weights2]
  rfl

/-- The stretch leaves the carried buffers as they were. -/
theorem carried8 : Carried m c (W8 m ρ c) :=
  (carried7 m ρ c).of_agree m c fun b hb => keptE (W7 m ρ c) b (carried_notE b hb)

set_option maxHeartbeats 4000000 in
/-- From any contents holding the reference's augmented index vectors, edge normalisation and layer-2 product, the
    stretch computes the reference's neighbourhood sums. -/
theorem aggregate2_of (W : Valuation τ sig (Elt Ideal))
    (hs : W (Proc.devRef .tc main_v5) = val_main_v5 (F := Ideal) (arg m c main_arg1))
    (hd : W (Proc.devRef .tc main_v6) = val_main_v6 (F := Ideal) (arg m c main_arg1))
    (hn : W (Proc.devRef .tc main_v31) = val_main_v31 (F := Ideal) (arg m c main_arg1))
    (hh : W (Proc.devRef .tc main_v48) = val_main_v50 (F := Ideal) (arg m c main_arg1) (arg m c main_arg2) (arg m c main_arg3) (arg m c main_arg4) (arg m c main_arg5)) :
    StableHlo.after hostOps3 W (Proc.devRef .tc main_v61) = val_main_v63 (F := Ideal) (arg m c main_arg1) (arg m c main_arg2) (arg m c main_arg3) (arg m c main_arg4) (arg m c main_arg5) := by
  after_results
  rw [hs, hd, hn, hh]
  rfl

/-- The neighbourhood sums of the second product are the reference's. -/
theorem aggregated2 : W8 m ρ c (Proc.devRef .tc main_v61) = val_main_v63 (F := Ideal) (arg m c main_arg1) (arg m c main_arg2) (arg m c main_arg3) (arg m c main_arg4) (arg m c main_arg5) :=
  aggregate2_of m c (W7 m ρ c) (carried7 m ρ c).src (carried7 m ρ c).dst (carried7 m ρ c).norm (hidden2 m ρ c)

set_option maxHeartbeats 4000000 in
/-- The bias viewed as one row is the reference's bias broadcast along the second axis. -/
theorem biasRow2_of (W : Valuation τ sig (Elt Ideal))
    (hb : W (Proc.devRef .tc main_arg6) = arg m c main_arg6) :
    StableHlo.after hostOps3 W (Proc.devRef .tc main_v62) = val_main_v64 (F := Ideal) (arg m c main_arg6) := by
  after_results
  rw [hb]
  show shapeCast S1x128 (arg m c main_arg6) shapeCasts_S128_S1x128
    = broadcastInDim S1x128 ![1] Cert.ReferenceIdeal.Gen.bcast_S128_S1x128_1 (arg m c main_arg6)
  exact RowCast.shapeCast_row_eq_broadcastInDim _ _ _

theorem biasRow2_at8 : W8 m ρ c (Proc.devRef .tc main_v62) = val_main_v64 (F := Ideal) (arg m c main_arg6) :=
  biasRow2_of m c (W7 m ρ c) (carried7 m ρ c).bias2

/-- Region 3 leaves the carried buffers as they were. -/
theorem carried9 : Carried m c (W9 m ρ c) :=
  (carried8 m ρ c).of_agree m c fun b hb => W9_of_ne m ρ c b (carried_not3 b hb)

/-- After region 3 its result array holds the reference's second activations. -/
theorem activated2 : W9 m ρ c (Proc.devRef .tc main_v63)
    = val_main_v67 (F := Ideal) (arg m c main_arg1) (arg m c main_arg2) (arg m c main_arg3) (arg m c main_arg4) (arg m c main_arg5) (arg m c main_arg6) := by
  refine (W9_arr m ρ c 2).trans ((final3 (V8 m ρ) Cert.ReferenceIdeal.Gen.bcast_S1x128_S100000x128_0_1 c).trans ?_)
  show maximumf (F := Ideal) (addf (F := Ideal) (W8 m ρ c (Proc.devRef .tc main_v61))
        (broadcastInDim S100000x128 ![0, 1] Cert.ReferenceIdeal.Gen.bcast_S1x128_S100000x128_0_1
          (W8 m ρ c (Proc.devRef .tc main_v62))))
      (broadcastInDim S100000x128 ![] bcast_S_S100000x128 (constant (F := Ideal) S_ .f32 0x00000000#32)) = _
  rw [aggregated2 m ρ c, biasRow2_at8 m ρ c]
  rfl

end Cert.KernelIdeal.Layers

end
-- ==== Proof.MatRegion4.lean ====
/-
  The third feature transform, one strip of rows per grid point.

  Grid point t of the third matrix-product region holds rows 5000·t … 5000·t + 4999 of the second layer's activations
  X and all of the 128 × 40 output weights W, and writes the strip's product with W back as the same rows of the result. Row r of X · W
  depends only on row r of X, so the twenty strips written back are the rows of the whole product: entry (r, j) is
  the sum over k of X (r, k) · W (k, j) over the extended reals, where rounding both operands to a narrower float
  format changes nothing.
-/
import proofs.«111457_j20349555048513_1_alg».proof.Proof.Gen.KernelIdeal.Frame
import proofs.«111457_j20349555048513_1_alg».proof.Proof.LibStripDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Layers

open Cert.KernelIdeal Cert.KernelIdeal.Gen

variable (V : (c : Dev nD) → (b : Ref sig .tc) → Buf (Elt Ideal) ((c : Thread nD τ).loc b))

theorem zero_offsets4 : (![0, 0] : Fin 2 → Nat) = fun _ => 0 := funext fun a => by fin_cases a <;> rfl

/-- The whole product X · W of the arrays the region finds. -/
abbrev product4 (c : Dev nD) : FVec Ideal S100000x40 .f32 :=
  Host.dotGeneral (F := Ideal) (φ₁ := .f32) (φ₂ := .f32) (DotDims.plain 100000 128 40) none (V c main_v63) (V c main_arg7)

/-- Point t reads strip t of X, all of W, and writes strip t of the result. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's stored value is the strip's product with the weights. -/
theorem stored4 (x0 : Vec Ideal S5000x128 .f32) (x1 : Vec Ideal S128x40 .f32) :
    k4_pay1 x0 x1 = matmul (F := Ideal) (φ₁ := .bf16) (φ₂ := .bf16) (DotDims.plain 5000 128 40) none x0 x1
      (constant S5000x40 .f32 0x00000000#32) := by
  show matmul (F := Ideal) (φ₁ := .bf16) (φ₂ := .bf16) dot_S5000x128_S128x40_S5000x40_1_0_0_1_n_n none
      (shapeCast S5000x128 x0 shapeCasts_S5000x128_S5000x128) x1 (constant S5000x40 .f32 0x00000000#32) = _
  rw [shapeCast_self]
  rfl

/-- Point t's block of the first window holds rows 5000·t … 5000·t + 4999 of X. -/
theorem rows4 (c : Dev nD) (t : Fin cfg4.N) (p : Fin 5000) (k : Fin 128) (h : 5000 * t.val + p.val < 100000) :
    (iblk4 V c 0 t : Vec Ideal S5000x128 .f32) (ix2 p k)
      = (V c main_v63 : FVec Ideal S100000x128 .f32) (ix2 ⟨5000 * t.val + p.val, h⟩ k) := by
  obtain ⟨e0, e1, -⟩ := blocks4 t
  unfold iblk4
  rw [View.read_apply]
  show V c main_v63 (((cfg4.win 0).blk t).view.emb (ix2 p k)) = V c main_v63 _
  refine congrArg _ (funext fun a => Fin.ext ?_)
  match a with
  | ⟨0, _⟩ => show win4_0.index t (0 : Fin 2) * 5000 + 1 * p.val = 5000 * t.val + p.val; rw [e0]; omega
  | ⟨1, _⟩ => show win4_0.index t (1 : Fin 2) * 128 + 1 * k.val = k.val; rw [e1]; omega

/-- Every point's block of the second window is all of W. -/
theorem weights4 (c : Dev nD) (t : Fin cfg4.N) (k : Fin 128) (q : Fin 40) :
    (iblk4 V c 1 t : Vec Ideal S128x40 .f32) (ix2 k q) = (V c main_arg7 : FVec Ideal S128x40 .f32) (ix2 k q) := by
  obtain ⟨-, -, e2, e3, -⟩ := blocks4 t
  unfold iblk4
  rw [View.read_apply]
  show V c main_arg7 (((cfg4.win 1).blk t).view.emb (ix2 k q)) = V c main_arg7 _
  refine congrArg _ (funext fun a => Fin.ext ?_)
  match a with
  | ⟨0, _⟩ => show win4_1.index t (0 : Fin 2) * 128 + 1 * k.val = k.val; rw [e2]; omega
  | ⟨1, _⟩ => show win4_1.index t (1 : Fin 2) * 40 + 1 * q.val = q.val; rw [e3]; omega

/-- What point t writes back is rows 5000·t … of the whole product. -/
theorem flushed4 (c : Dev nD) (t : Fin cfg4.N) :
    (dat4 V c).flushed 2 t = ((cfg4.win 2).blk t).view.read (Elt Ideal) (product4 V c) := by
  obtain ⟨-, -, -, -, e4, e5⟩ := blocks4 t
  have ht : t.val < 20 := lt_of_lt_of_eq t.isLt N_4
  have hrow : ∀ p' : Fin 5000, 5000 * t.val + p'.val < 100000 := fun p' => by have := p'.isLt; omega
  show (cfg4.win 2).cut (grid4.coords t) ((dat4 V c).after 2 t) = _
  rw [after4_2]
  unfold out4_2
  rw [View.canon_unit_zero zero_offsets4]
  simp only [View.ld_unit_zero (S := S5000x128) zero_offsets4, View.ld_unit_zero (S := S128x40) zero_offsets4]
  rw [stored4]
  funext j
  obtain ⟨p, q, rfl⟩ : ∃ (p : Fin 5000) (q : Fin 40), j = ix2 p q := ⟨j 0, j 1, eq_ix2 j⟩
  have hemb : ((cfg4.win 2).blk t).view.emb (ix2 p q) = ix2 ⟨5000 * t.val + p.val, hrow p⟩ q :=
    funext fun a => Fin.ext (by
      match a with
      | ⟨0, _⟩ => show win4_2.index t (0 : Fin 2) * 5000 + 1 * p.val = 5000 * t.val + p.val; rw [e4]; omega
      | ⟨1, _⟩ => show win4_2.index t (1 : Fin 2) * 40 + 1 * q.val = q.val; rw [e5]; omega)
  rw [View.read_apply]
  show matmul (F := Ideal) (φ₁ := .bf16) (φ₂ := .bf16) (DotDims.plain 5000 128 40) none (iblk4 V c 0 t) (iblk4 V c 1 t)
      (constant S5000x40 .f32 0x00000000#32) (ix2 p q)
    = product4 V c (((cfg4.win 2).blk t).view.emb (ix2 p q))
  rw [hemb]
  exact StripDot.matmul_strip_apply none none .single (V c main_v63) (V c main_arg7) (iblk4 V c 0 t) (iblk4 V c 1 t)
    (5000 * t.val) hrow (fun p' k => rows4 V c t p' k (hrow p')) (fun k q' => weights4 V c t k q') p q

/-- An index of the result is in point t's block iff its row is one of the strip's. -/
theorem mem_strip4 (t : Fin cfg4.N) (i : S100000x40.Idx) :
    i ∈ ((cfg4.win 2).blk t).view.set ↔ ∀ a : Fin 2, win4_2.index t a * S5000x40.size a ≤ (i a).val
      ∧ (i a).val < win4_2.index t a * S5000x40.size a + S5000x40.size a := by
  show i ∈ ((View.whole main_v64).slice (win4_2.rect t)).set ↔ _
  rw [View.set_slice_whole, Rect.mem_set_unit]
  exact Iff.rfl

/-- Row r lies in strip r / 5000: the twenty strips cover the result. -/
theorem cover4 (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  have hN : cfg4.N = 20 := N_4
  let t : Fin cfg4.N := ⟨(i 0).val / 5000, by rw [hN]; omega⟩
  obtain ⟨-, -, -, -, e4, e5⟩ := blocks4 t
  have e4' : win4_2.index t (0 : Fin 2) = (i 0).val / 5000 := e4
  refine ⟨t, flush4_2 t, ?_⟩
  rw [mem_strip4]
  intro a
  match a with
  | ⟨0, _⟩ =>
    show win4_2.index t (0 : Fin 2) * 5000 ≤ (i 0).val ∧ (i 0).val < win4_2.index t (0 : Fin 2) * 5000 + 5000
    rw [e4']; omega
  | ⟨1, _⟩ =>
    show win4_2.index t (1 : Fin 2) * 40 ≤ (i 1).val ∧ (i 1).val < win4_2.index t (1 : Fin 2) * 40 + 40
    rw [e5]; omega

/-- After the region the result array holds the whole product X · W. -/
theorem final4 (c : Dev nD) : (dat4 V c).arrAt 2 cfg4.N = product4 V c :=
  (dat4 V c).arrAt_eq_of_cover 2 (product4 V c) (fun t _ => flushed4 V c t) cover4

end Cert.KernelIdeal.Layers

end
-- ==== Proof.BiasRegion5.lean ====
/-
  The output layer's bias, one strip of rows per grid point.

  Grid point t of the region holds rows 5000·t … 5000·t + 4999 of the aggregated class scores A (40 columns) and the
  bias as a one-row matrix B; it adds the row to every row of the strip and writes the sums back as the same rows of
  the result. Entry (r, j) of what is written depends only on A (r, j) and B (0, j), so the twenty strips written back
  are the rows of A + B spread over all rows taken on the whole matrix at once. There is no activation on this layer.
-/
import proofs.«111457_j20349555048513_1_alg».proof.Proof.Gen.KernelIdeal.Frame
import proofs.«111457_j20349555048513_1_alg».proof.Proof.LibBiasStrip
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Layers

open Cert.KernelIdeal Cert.KernelIdeal.Gen

variable (V : (c : Dev nD) → (b : Ref sig .tc) → Buf (Elt Ideal) ((c : Thread nD τ).loc b))

theorem zero_offsets5 : (![0, 0] : Fin 2 → Nat) = fun _ => 0 := funext fun a => by fin_cases a <;> rfl

/-- A + B spread over the rows, on the whole arrays the region finds. -/
abbrev biased5 (hh : S1x40.BroadcastsInDim S100000x40 (![0, 1] : Fin 2 → Fin S100000x40.rank)) (c : Dev nD) :
    FVec Ideal S100000x40 .f32 :=
  addf (F := Ideal) (V c main_v77) (broadcastInDim S100000x40 ![0, 1] hh (V c main_v78))

/-- Point t reads strip t of A, the whole bias row, and writes strip t of the result. -/
theorem blocks5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's stored value: the strip plus the spread row. -/
theorem stored5 (x0 : Vec Ideal S5000x40 .f32) (x1 : Vec Ideal S1x40 .f32) :
    k5_pay1 x0 x1 = addf (F := Ideal) (shapeCast S5000x40 x0 shapeCasts_S5000x40_S5000x40)
        (broadcastTo S5000x40 (shapeCast S1x40 x1 shapeCasts_S1x40_S1x40) broadcasts_S1x40_S5000x40) := rfl

/-- Point t's block of the first window holds rows 5000·t … 5000·t + 4999 of A. -/
theorem rows5 (c : Dev nD) (t : Fin cfg5.N) (p : Fin 5000) (q : Fin 40) (h : 5000 * t.val + p.val < 100000) :
    (iblk5 V c 0 t : Vec Ideal S5000x40 .f32) (ix2 p q)
      = (V c main_v77 : FVec Ideal S100000x40 .f32) (ix2 ⟨5000 * t.val + p.val, h⟩ q) := by
  obtain ⟨e0, e1, -⟩ := blocks5 t
  unfold iblk5
  rw [View.read_apply]
  show V c main_v77 (((cfg5.win 0).blk t).view.emb (ix2 p q)) = V c main_v77 _
  refine congrArg _ (funext fun a => Fin.ext ?_)
  match a with
  | ⟨0, _⟩ => show win5_0.index t (0 : Fin 2) * 5000 + 1 * p.val = 5000 * t.val + p.val; rw [e0]; omega
  | ⟨1, _⟩ => show win5_0.index t (1 : Fin 2) * 40 + 1 * q.val = q.val; rw [e1]; omega

/-- Every point's block of the second window is the whole bias row. -/
theorem biasRow5 (c : Dev nD) (t : Fin cfg5.N) (q : Fin 40) :
    (iblk5 V c 1 t : Vec Ideal S1x40 .f32) (ix2 (0 : Fin 1) q) = (V c main_v78 : FVec Ideal S1x40 .f32) (ix2 (0 : Fin 1) q) := by
  obtain ⟨-, -, e2, e3, -⟩ := blocks5 t
  unfold iblk5
  rw [View.read_apply]
  show V c main_v78 (((cfg5.win 1).blk t).view.emb (ix2 (0 : Fin 1) q)) = V c main_v78 _
  refine congrArg _ (funext fun a => Fin.ext ?_)
  match a with
  | ⟨0, _⟩ => show win5_1.index t (0 : Fin 2) * 1 + 1 * 0 = 0; rw [e2]
  | ⟨1, _⟩ => show win5_1.index t (1 : Fin 2) * 40 + 1 * q.val = q.val; rw [e3]; omega

/-- What point t writes back is rows 5000·t … of the whole result. -/
theorem flushed5 (hh : S1x40.BroadcastsInDim S100000x40 (![0, 1] : Fin 2 → Fin S100000x40.rank)) (c : Dev nD)
    (t : Fin cfg5.N) :
    (dat5 V c).flushed 2 t = ((cfg5.win 2).blk t).view.read (Elt Ideal) (biased5 V hh c) := by
  obtain ⟨-, -, -, -, e4, e5⟩ := blocks5 t
  have ht : t.val < 20 := lt_of_lt_of_eq t.isLt N_5
  have hrow : ∀ p' : Fin 5000, 5000 * t.val + p'.val < 100000 := fun p' => by have := p'.isLt; omega
  show (cfg5.win 2).cut (grid5.coords t) ((dat5 V c).after 2 t) = _
  rw [after5_2]
  unfold out5_2
  rw [View.canon_unit_zero zero_offsets5]
  simp only [View.ld_unit_zero (S := S5000x40) zero_offsets5, View.ld_unit_zero (S := S1x40) zero_offsets5]
  rw [stored5]
  funext j
  obtain ⟨p, q, rfl⟩ : ∃ (p : Fin 5000) (q : Fin 40), j = ix2 p q := ⟨j 0, j 1, eq_ix2 j⟩
  have hemb : ((cfg5.win 2).blk t).view.emb (ix2 p q) = ix2 ⟨5000 * t.val + p.val, hrow p⟩ q :=
    funext fun a => Fin.ext (by
      match a with
      | ⟨0, _⟩ => show win5_2.index t (0 : Fin 2) * 5000 + 1 * p.val = 5000 * t.val + p.val; rw [e4]; omega
      | ⟨1, _⟩ => show win5_2.index t (1 : Fin 2) * 40 + 1 * q.val = q.val; rw [e5]; omega)
  rw [View.read_apply]
  show addf (F := Ideal) (shapeCast S5000x40 (iblk5 V c 0 t) shapeCasts_S5000x40_S5000x40)
        (broadcastTo S5000x40 (shapeCast S1x40 (iblk5 V c 1 t) shapeCasts_S1x40_S1x40) broadcasts_S1x40_S5000x40) (ix2 p q)
    = biased5 V hh c (((cfg5.win 2).blk t).view.emb (ix2 p q))
  rw [hemb]
  exact BiasStrip.addRow_strip_apply (V c main_v77) (V c main_v78) (iblk5 V c 0 t) (iblk5 V c 1 t)
    shapeCasts_S5000x40_S5000x40 shapeCasts_S1x40_S1x40 broadcasts_S1x40_S5000x40 hh (5000 * t.val) hrow (fun p' q' => rows5 V c t p' q' (hrow p')) (fun q' => biasRow5 V c t q') p q

/-- An index of the result is in point t's block iff its row is one of the strip's. -/
theorem mem_strip5 (t : Fin cfg5.N) (i : S100000x40.Idx) :
    i ∈ ((cfg5.win 2).blk t).view.set ↔ ∀ a : Fin 2, win5_2.index t a * S5000x40.size a ≤ (i a).val
      ∧ (i a).val < win5_2.index t a * S5000x40.size a + S5000x40.size a := by
  show i ∈ ((View.whole main_v79).slice (win5_2.rect t)).set ↔ _
  rw [View.set_slice_whole, Rect.mem_set_unit]
  exact Iff.rfl

/-- Row r lies in strip r / 5000: the twenty strips cover the result. -/
theorem cover5 (i : S100000x40.Idx) : ∃ t : Fin cfg5.N, (cfg5.win 2).flush t = true ∧ i ∈ ((cfg5.win 2).blk t).view.set := by
  have hi0 : (i 0).val < 100000 := (i 0).isLt
  have hi1 : (i 1).val < 40 := (i 1).isLt
  have hN : cfg5.N = 20 := N_5
  let t : Fin cfg5.N := ⟨(i 0).val / 5000, by rw [hN]; omega⟩
  obtain ⟨-, -, -, -, e4, e5⟩ := blocks5 t
  have e4' : win5_2.index t (0 : Fin 2) = (i 0).val / 5000 := e4
  refine ⟨t, flush5_2 t, ?_⟩
  rw [mem_strip5]
  intro a
  match a with
  | ⟨0, _⟩ =>
    show win5_2.index t (0 : Fin 2) * 5000 ≤ (i 0).val ∧ (i 0).val < win5_2.index t (0 : Fin 2) * 5000 + 5000
    rw [e4']; omega
  | ⟨1, _⟩ =>
    show win5_2.index t (1 : Fin 2) * 40 ≤ (i 1).val ∧ (i 1).val < win5_2.index t (1 : Fin 2) * 40 + 40
    rw [e5]; omega

/-- After the region the result array holds A + B spread over the rows. -/
theorem final5 (hh : S1x40.BroadcastsInDim S100000x40 (![0, 1] : Fin 2 → Fin S100000x40.rank)) (c : Dev nD) :
    (dat5 V c).arrAt 2 cfg5.N = biased5 V hh c :=
  (dat5 V c).arrAt_eq_of_cover 2 (biased5 V hh c) (fun t _ => flushed5 V hh c t) cover5

end Cert.KernelIdeal.Layers

end
-- ==== Proof.Layer3.lean ====
/-
  The output layer and the rows picked out at the end, boundary by boundary.

  Region 4 multiplies the second layer's activations by the 128 × 40 output weights; the host stretch after it gathers,
  scales and sums over each node's neighbourhood and views the output bias as one row; region 5 adds the row (this layer
  has no activation); the last stretch gathers the rows of the result at the node list. At each boundary the buffer
  just written holds the reference's stage of the same name, and the last of them is the reference's result.
-/
import proofs.«111457_j20349555048513_1_alg».proof.Proof.Layer2
import proofs.«111457_j20349555048513_1_alg».proof.Proof.MatRegion4
import proofs.«111457_j20349555048513_1_alg».proof.Proof.BiasRegion5
import Idealize.ShloMosaic.Lib.StableHlo.Run

noncomputable section

open Idealize.ShloMosaic Idealize.ShloMosaic.TcCoe Idealize.SL.Sem Idealize.ShloMosaic.StableHlo

namespace Cert.KernelIdeal.Layers

open Cert.KernelIdeal Cert.KernelIdeal.Gen
open Cert.ReferenceIdeal.ReadP

variable (m : (ℓ : Loc nD τ sig) → Buf (Elt Ideal) ℓ) (ρ : Dev nD → PrngReg) (c : Dev nD)

/-- Of the carried buffers region 4 touches only its weights, which it reads. -/
theorem carried_not4 : ∀ b ∈ carriedRefs, b ≠ main_arg7 → ∀ w, Pipeline.arrRef spec4 w ≠ b := by decide
/-- Region 5 reads and writes none of the carried buffers. -/
theorem carried_not5 : ∀ b ∈ carriedRefs, ∀ w, Pipeline.arrRef spec5 w ≠ b := by decide

/-- Region 4 leaves the carried buffers as they were: an array it only reads comes out as it went in, and the others are
    none of its arrays. -/
theorem carried10 : Carried m c (W10 m ρ c) :=
  (carried9 m ρ c).of_agree m c fun b hb => by
    by_cases hw : b = main_arg7
    · subst hw
      exact (W10_arr m ρ c 1).trans (((dat4 (V9 m ρ) c).arrAt_in 1 rfl _).trans (A_eq4 (V9 m ρ) c 1))
    · exact W10_of_ne m ρ c b (carried_not4 b hb hw)

/-- After region 4 its result array holds the reference's third product. -/
theorem hidden3 : W10 m ρ c (Proc.devRef .tc main_v64)
    = val_main_v68 (F := Ideal) (arg m c main_arg1) (arg m c main_arg2) (arg m c main_arg3) (arg m c main_arg4) (arg m c main_arg5) (arg m c main_arg6) (arg m c main_arg7) := by
  have hC := carried9 m ρ c
  refine (W10_arr m ρ c 2).trans ((final4 (V9 m ρ) c).trans ?_)
  show Host.dotGeneral (F := Ideal) (φ₁ := .f32) (φ₂ := .f32) (DotDims.plain 100000 128 40) none
      (W9 m ρ c (Proc.devRef .tc main_v63)) (W9 m ρ c (Proc.devRef .tc main_arg7)) = _
  rw [activated2 m ρ c, hC.weights3]
  rfl

/-- The stretch leaves the carried buffers as they were. -/
theorem carried11 : Carried m c (W11 m ρ c) :=
  (carried10 m ρ c).of_agree m c fun b hb => keptG (W10 m ρ c) b (carried_notG b hb)

set_option maxHeartbeats 4000000 in
/-- From any contents holding the reference's augmented index vectors, edge normalisation and layer-3 product, the
    stretch computes the reference's neighbourhood sums. -/
theorem aggregate3_of (W : Valuation τ sig (Elt Ideal))
    (hs : W (Proc.devRef .tc main_v5) = val_main_v5 (F := Ideal) (arg m c main_arg1))
    (hd : W (Proc.devRef .tc main_v6) = val_main_v6 (F := Ideal) (arg m c main_arg1))
    (hn : W (Proc.devRef .tc main_v31) = val_main_v31 (F := Ideal) (arg m c main_arg1))
    (hh : W (Proc.devRef .tc main_v64) = val_main_v68 (F := Ideal) (arg m c main_arg1) (arg m c main_arg2) (arg m c main_arg3) (arg m c main_arg4) (arg m c main_arg5) (arg m c main_arg6) (arg m c main_arg7)) :
    StableHlo.after hostOps5 W (Proc.devRef .tc main_v77) = val_main_v81 (F := Ideal) (arg m c main_arg1) (arg m c main_arg2) (arg m c main_arg3) (arg m c main_arg4) (arg m c main_arg5) (arg m c main_arg6) (arg m c main_arg7) := by
  after_results
  rw [hs, hd, hn, hh]
  rfl

/-- The neighbourhood sums of the third product are the reference's. -/
theorem aggregated3 : W11 m ρ c (Proc.devRef .tc main_v77)
    = val_main_v81 (F := Ideal) (arg m c main_arg1) (arg m c main_arg2) (arg m c main_arg3) (arg m c main_arg4) (arg m c main_arg5) (arg m c main_arg6) (arg m c main_arg7) :=
  aggregate3_of m c (W10 m ρ c) (carried10 m ρ c).src (carried10 m ρ c).dst (carried10 m ρ c).norm (hidden3 m ρ c)

set_option maxHeartbeats 4000000 in
/-- The bias viewed as one row is the reference's bias broadcast along the second axis. -/
theorem biasRow3_of (W : Valuation τ sig (Elt Ideal))
    (hb : W (Proc.devRef .tc main_arg8) = arg m c main_arg8) :
    StableHlo.after hostOps5 W (Proc.devRef .tc main_v78) = val_main_v82 (F := Ideal) (arg m c main_arg8) := by
  after_results
  rw [hb]
  show shapeCast S1x40 (arg m c main_arg8) shapeCasts_S40_S1x40
    = broadcastInDim S1x40 ![1] Cert.ReferenceIdeal.Gen.bcast_S40_S1x40_1 (arg m c main_arg8)
  exact RowCast.shapeCast_row_eq_broadcastInDim _ _ _

theorem biasRow3_at11 : W11 m ρ c (Proc.devRef .tc main_v78) = val_main_v82 (F := Ideal) (arg m c main_arg8) :=
  biasRow3_of m c (W10 m ρ c) (carried10 m ρ c).bias3

/-- Region 5 leaves the carried buffers as they were. -/
theorem carried12 : Carried m c (W12 m ρ c) :=
  (carried11 m ρ c).of_agree m c fun b hb => W12_of_ne m ρ c b (carried_not5 b hb)

/-- After region 5 its result array holds the reference's class scores. -/
theorem scores : W12 m ρ c (Proc.devRef .tc main_v79)
    = val_main_v84 (F := Ideal) (arg m c main_arg1) (arg m c main_arg2) (arg m c main_arg3) (arg m c main_arg4) (arg m c main_arg5) (arg m c main_arg6) (arg m c main_arg7) (arg m c main_arg8) := by
  refine (W12_arr m ρ c 2).trans ((final5 (V11 m ρ) Cert.ReferenceIdeal.Gen.bcast_S1x40_S100000x40_0_1 c).trans ?_)
  show addf (F := Ideal) (W11 m ρ c (Proc.devRef .tc main_v77))
      (broadcastInDim S100000x40 ![0, 1] Cert.ReferenceIdeal.Gen.bcast_S1x40_S100000x40_0_1
        (W11 m ρ c (Proc.devRef .tc main_v78))) = _
  rw [aggregated3 m ρ c, biasRow3_at11 m ρ c]
  rfl

set_option maxHeartbeats 4000000 in
/-- From any contents holding the node list and the reference's class scores, the last stretch gathers the reference's
    result. -/
theorem result_of (W : Valuation τ sig (Elt Ideal)) (hn : W (Proc.devRef .tc main_arg0) = arg m c main_arg0)
    (hs : W (Proc.devRef .tc main_v79) = val_main_v84 (F := Ideal) (arg m c main_arg1) (arg m c main_arg2) (arg m c main_arg3) (arg m c main_arg4) (arg m c main_arg5) (arg m c main_arg6) (arg m c main_arg7) (arg m c main_arg8)) :
    StableHlo.after hostOps6 W (Proc.devRef .tc main_v86)
      = val_main_v91 (F := Ideal) (arg m c main_arg0) (arg m c main_arg1) (arg m c main_arg2) (arg m c main_arg3) (arg m c main_arg4) (arg m c main_arg5) (arg m c main_arg6) (arg m c main_arg7) (arg m c main_arg8) := by
  after_results
  rw [hn, hs]
  rfl

/-- The program's result: the rows of the class scores at the node list, as the reference computes them. -/
theorem result : W13 m ρ c (Proc.devRef .tc main_v86)
    = val_main_v91 (F := Ideal) (arg m c main_arg0) (arg m c main_arg1) (arg m c main_arg2) (arg m c main_arg3) (arg m c main_arg4) (arg m c main_arg5) (arg m c main_arg6) (arg m c main_arg7) (arg m c main_arg8) :=
  result_of m c (W12 m ρ c) (carried12 m ρ c).nodes (scores m ρ c)

end Cert.KernelIdeal.Layers

end
-- ==== Proof.lean ====
/-
  A three-layer graph convolution, computed with six tiled kernels, against the same network computed by the host alone.

  Both programs first build, from the edge list, the augmented sources and targets (every node gets a self-loop) and the
  symmetric normalisation 1/sqrt(deg(source)) · 1/sqrt(deg(target)) of each augmented edge. A layer then maps node features
  X to  S (X · W) + b, where S sums over each node's incoming augmented edges the source's row scaled by the edge's
  normalisation; the first two layers clamp the result from below at zero; the answer is the rows of the last layer's
  result at the given node list.

  The kernel program computes X · W twenty strips of 5000 rows at a time and adds the bias (and clamps) likewise strip by
  strip; the gathers and neighbourhood sums in between are host operations, the very ones the reference runs. Over the
  extended reals a strip of X · W is that strip of the whole product — row r depends only on row r of X, and the narrower
  float format the kernel rounds its operands to is the identity there — and adding a spread row and clamping act entry by
  entry. So at every boundary between segments the buffer just written holds what the reference holds at the
  corresponding stage (Prologue, Layer1, Layer2, Layer3), the last of them being the result. No finiteness of the inputs is
  used: the two sums over k have the same terms in the same order.

  The kernel program's run is the library's launch of its thirteen segments, read at the last boundary (ValueRun); the
  reference's run and its stages are RefRun and RefRead. The idealized kernel is the kernel's own text read over the
  extended reals (no operation was rewritten), so there is nothing to preserve.
-/
import proofs.«111457_j20349555048513_1_alg».proof.Defs
import proofs.«111457_j20349555048513_1_alg».proof.Proof.Gen.Kernel
import proofs.«111457_j20349555048513_1_alg».proof.Proof.Gen.Kernel.Frame
import proofs.«111457_j20349555048513_1_alg».proof.Proof.Gen.KernelIdeal
import proofs.«111457_j20349555048513_1_alg».proof.Proof.Gen.KernelIdeal.Frame
import proofs.«111457_j20349555048513_1_alg».proof.Proof.Gen.ReferenceIdeal
import proofs.«111457_j20349555048513_1_alg».proof.Proof.Gen.Pre_finite_inputs
import proofs.«111457_j20349555048513_1_alg».proof.Proof.ValueRun
import proofs.«111457_j20349555048513_1_alg».proof.Proof.Layer3
import proofs.«111457_j20349555048513_1_alg».proof.Proof.RefRun
import proofs.«111457_j20349555048513_1_alg».proof.Proof.RefRead
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- No operation was rewritten when the kernel was read over the extended reals. -/
theorem preserves : Cert.preserves_Kernel_KernelIdeal := trivial

/-- From memories agreeing on the arguments both programs end with the same result: the kernel's result buffer holds
    the reference's last stage of the kernel's arguments, the reference's holds it of its own, and the arguments agree. -/
theorem algebraic : Cert.algebraic_KernelIdeal_ReferenceIdeal := by
  intro m ρ m' ρ' _ hagree
  refine ⟨fun c => Cert.KernelIdeal.Gen.W13 m ρ c (Proc.devRef .tc Cert.KernelIdeal.main_v86),
    Cert.KernelIdeal.Layers.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  show Cert.ReferenceIdeal.ValueP.res_main_v91 m' c
    = Cert.KernelIdeal.Gen.W13 m ρ c (Proc.devRef .tc Cert.KernelIdeal.main_v86)
  rw [Cert.ReferenceIdeal.ReadP.val_main_v91_eq, Cert.KernelIdeal.Layers.result m ρ c, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
